-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200x448x448 : Shape := ⟨3, ![200, 448, 448]⟩
abbrev S200 : Shape := ⟨1, ![200]⟩
abbrev S_ : Shape := ⟨0, ![]⟩
abbrev S200x200704 : Shape := ⟨2, ![200, 200704]⟩

class Facts : Prop where
  bcast_S_S200x448x448 : S_.BroadcastsInDim S200x448x448 (![] : Fin 0 → Fin S200x448x448.rank)
  reducesTo_S200x448x448_S_d0_1_2 : S200x448x448.ReducesTo [0, 1, 2] S_
  h_S_ : 0 < S_.numel
  bcast_S_S200 : S_.BroadcastsInDim S200 (![] : Fin 0 → Fin S200.rank)
  reducesTo_S200_S_d0 : S200.ReducesTo [0] S_
  shapeCasts_S200x448x448_S200x200704 : S200x448x448.ShapeCasts S200x200704
  reducesTo_S200x200704_S200_d1 : S200x200704.ReducesTo [1] S200

variable [Facts]

def fn_part1 {F : FTy → Type} [FloatOps F] (main_v15 : IVec S_ 1) (main_v16 : FVec F S200x200704 .f32) : IVec S_ 1 :=
  let main_cst_5 : FVec F S_ .f32 := constant S_ .f32 0x00000000#32
  let main_v17 : FVec F S200 .f32 := (fun x v => Host.reduceAdd x v reducesTo_S200x200704_S200_d1 h_S_) main_v16 main_cst_5
  let main_cst_6 : FVec F S_ .f32 := constant S_ .f32 0x00000000#32
  let main_v18 : FVec F S200 .f32 := broadcastInDim S200 ![] bcast_S_S200 main_cst_6
  let main_v19 : IVec S200 1 := cmpf .ogt main_v17 main_v18
  let main_c_7 : IVec S_ 1 := constantI S_ 1 1#1
  let main_v20 : IVec S_ 1 := (fun x v => Host.reduce IntOp.andi x v reducesTo_S200_S_d0 h_S_) main_v19 main_c_7
  let main_v21 : IVec S_ 1 := andi main_v15 main_v20
  main_v21

def fn {F : FTy → Type} [FloatOps F] (main_arg0 : FVec F S200x448x448 .f32) (main_arg1 : FVec F S200 .f32) (main_arg2 : IVec S200 32) : IVec S_ 1 :=
  let main_v0 : FVec F S200x448x448 .f32 := Host.absf main_arg0
  let main_cst : FVec F S_ .f32 := constant S_ .f32 0x7F800000#32
  let main_v1 : FVec F S200x448x448 .f32 := broadcastInDim S200x448x448 ![] bcast_S_S200x448x448 main_cst
  let main_v2 : IVec S200x448x448 1 := cmpf .olt main_v0 main_v1
  let main_c : IVec S_ 1 := constantI S_ 1 1#1
  let main_v3 : IVec S_ 1 := (fun x v => Host.reduce IntOp.andi x v reducesTo_S200x448x448_S_d0_1_2 h_S_) main_v2 main_c
  let main_v4 : FVec F S200 .f32 := Host.absf main_arg1
  let main_cst_0 : FVec F S_ .f32 := constant S_ .f32 0x7F800000#32
  let main_v5 : FVec F S200 .f32 := broadcastInDim S200 ![] bcast_S_S200 main_cst_0
  let main_v6 : IVec S200 1 := cmpf .olt main_v4 main_v5
  let main_c_1 : IVec S_ 1 := constantI S_ 1 1#1
  let main_v7 : IVec S_ 1 := (fun x v => Host.reduce IntOp.andi x v reducesTo_S200_S_d0 h_S_) main_v6 main_c_1
  let main_v8 : IVec S_ 1 := andi main_v3 main_v7
  let main_cst_2 : FVec F S_ .f32 := constant S_ .f32 0x00000000#32
  let main_v9 : FVec F S200x448x448 .f32 := broadcastInDim S200x448x448 ![] bcast_S_S200x448x448 main_cst_2
  let main_v10 : IVec S200x448x448 1 := cmpf .oeq main_arg0 main_v9
  let main_cst_3 : FVec F S_ .f32 := constant S_ .f32 0x3F800000#32
  let main_v11 : FVec F S200x448x448 .f32 := broadcastInDim S200x448x448 ![] bcast_S_S200x448x448 main_cst_3
  let main_v12 : IVec S200x448x448 1 := cmpf .oeq main_arg0 main_v11
  let main_v13 : IVec S200x448x448 1 := ori main_v10 main_v12
  let main_c_4 : IVec S_ 1 := constantI S_ 1 1#1
  let main_v14 : IVec S_ 1 := (fun x v => Host.reduce IntOp.andi x v reducesTo_S200x448x448_S_d0_1_2 h_S_) main_v13 main_c_4
  let main_v15 : IVec S_ 1 := andi main_v8 main_v14
  let main_v16 : FVec F S200x200704 .f32 := shapeCast S200x200704 main_arg0 shapeCasts_S200x448x448_S200x200704
  fn_part1 (F := F) main_v15 main_v16
-- ==== Kernel.lean ====
abbrev S200x448x448 : Shape := ⟨3, ![200, 448, 448]⟩
abbrev S200 : Shape := ⟨1, ![200]⟩
abbrev S200x200704 : Shape := ⟨2, ![200, 200704]⟩
abbrev S2x200x200 : Shape := ⟨3, ![2, 200, 200]⟩
abbrev S2x200x1 : Shape := ⟨3, ![2, 200, 1]⟩
abbrev S200x12544 : Shape := ⟨2, ![200, 12544]⟩
abbrev S1x200x200 : Shape := ⟨3, ![1, 200, 200]⟩
abbrev S1x200x1 : Shape := ⟨3, ![1, 200, 1]⟩
abbrev S200x200 : Shape := ⟨2, ![200, 200]⟩
abbrev S200x1 : Shape := ⟨2, ![200, 1]⟩
abbrev S1x200 : Shape := ⟨2, ![1, 200]⟩

abbrev nBuf : Space → Nat
  | .hbm => 11
  | .vmem => 11
  | .smem => 0
  | _ => 0

abbrev bufTy : (tb : Table) → Fin (tcTables nBuf tb) → BufTy
  | .hbm, ⟨0, _⟩ => ⟨S200x448x448, .f32⟩
  | .hbm, ⟨1, _⟩ => ⟨S200, .f32⟩
  | .hbm, ⟨2, _⟩ => ⟨S200, .i32⟩
  | .hbm, ⟨3, _⟩ => ⟨S200x200704, .f32⟩
  | .hbm, ⟨4, _⟩ => ⟨S200x200704, .bf16⟩
  | .hbm, ⟨5, _⟩ => ⟨S2x200x200, .f32⟩
  | .hbm, ⟨6, _⟩ => ⟨S2x200x1, .f32⟩
  | .hbm, ⟨7, _⟩ => ⟨S200x1, .i32⟩
  | .hbm, ⟨8, _⟩ => ⟨S1x200, .f32⟩
  | .hbm, ⟨9, _⟩ => ⟨S1x200, .f32⟩
  | .hbm, ⟨10, _⟩ => ⟨S200, .f32⟩
  | .local _ .vmem, ⟨0, _⟩ => ⟨S200x12544, .bf16⟩
  | .local _ .vmem, ⟨1, _⟩ => ⟨S200x12544, .bf16⟩
  | .local _ .vmem, ⟨2, _⟩ => ⟨S1x200x200, .f32⟩
  | .local _ .vmem, ⟨3, _⟩ => ⟨S1x200x200, .f32⟩
  | .local _ .vmem, ⟨4, _⟩ => ⟨S1x200x1, .f32⟩
  | .local _ .vmem, ⟨5, _⟩ => ⟨S1x200x1, .f32⟩
  | .local _ .vmem, ⟨6, _⟩ => ⟨S2x200x200, .f32⟩
  | .local _ .vmem, ⟨7, _⟩ => ⟨S2x200x1, .f32⟩
  | .local _ .vmem, ⟨8, _⟩ => ⟨S200x1, .i32⟩
  | .local _ .vmem, ⟨9, _⟩ => ⟨S1x200, .f32⟩
  | .local _ .vmem, ⟨10, _⟩ => ⟨S1x200, .f32⟩
  | _, _ => ⟨S200x448x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S200x12544 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x200x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x200x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x200x200 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x200x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S200x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x200 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x200 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S200x448x448_S200x200704 : S200x448x448.ShapeCasts S200x200704
  bitsLt_bf16_f32 : FTy.bits .bf16 < FTy.bits .f32
  inb_S1x200x200_S1x200x200_0_0_0 : ∀ a, (![0, 0, 0] : Fin 3 → Nat) a + S1x200x200.size a ≤ S1x200x200.size a
  h_S1x200x200 : 0 < S1x200x200.numel
  shapeCasts_S1x200x200_S200x200 : S1x200x200.ShapeCasts S200x200
  shapeCasts_S200x200_S1x200x200 : S200x200.ShapeCasts S1x200x200
  inb_S1x200x1_S1x200x1_0_0_0 : ∀ a, (![0, 0, 0] : Fin 3 → Nat) a + S1x200x1.size a ≤ S1x200x1.size a
  h_S1x200x1 : 0 < S1x200x1.numel
  shapeCasts_S1x200x1_S200x1 : S1x200x1.ShapeCasts S200x1
  shapeCasts_S200x1_S1x200x1 : S200x1.ShapeCasts S1x200x1
  inb_S200x12544_S200x12544_0_0 : ∀ a, (![0, 0] : Fin 2 → Nat) a + S200x12544.size a ≤ S200x12544.size a
  h_S200x12544 : 0 < S200x12544.numel
  shapeCasts_S200x12544_S200x12544 : S200x12544.ShapeCasts S200x12544
  reduces_S200x12544_S200 : S200x12544.Reduces [1] S200
  shapeCasts_S200_S200x1 : S200.ShapeCasts S200x1
  shapeCasts_S200_S1x200 : S200.ShapeCasts S1x200
  inb_S2x200x200_S1x200x200_0_0_0 : ∀ a, (![0, 0, 0] : Fin 3 → Nat) a + S1x200x200.size a ≤ S2x200x200.size a
  inb_S2x200x200_S1x200x200_1_0_0 : ∀ a, (![1, 0, 0] : Fin 3 → Nat) a + S1x200x200.size a ≤ S2x200x200.size a
  inb_S2x200x1_S1x200x1_0_0_0 : ∀ a, (![0, 0, 0] : Fin 3 → Nat) a + S1x200x1.size a ≤ S2x200x1.size a
  inb_S2x200x1_S1x200x1_1_0_0 : ∀ a, (![1, 0, 0] : Fin 3 → Nat) a + S1x200x1.size a ≤ S2x200x1.size a
  transposes_S200x1_p1_0_S1x200 : S200x1.Transposes [1, 0] S1x200
  inb_S200x1_S200x1_0_0 : ∀ a, (![0, 0] : Fin 2 → Nat) a + S200x1.size a ≤ S200x1.size a
  h_S200x1 : 0 < S200x1.numel
  shapeCasts_S200x1_S200x1 : S200x1.ShapeCasts S200x1
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S200x200 : S1x200.Broadcasts S200x200
  broadcasts_S200x1_S200x200 : S200x1.Broadcasts S200x200
  iota_S200x200_d0_w32 : S200x200.Iotas .tc 32 [0]
  iota_S200x200_d1_w32 : S200x200.Iotas .tc 32 [1]
  natLt_1_32 : 1 < 32
  reduces_S200x200_S200 : S200x200.Reduces [0] S200
  transposes_S1x200_p1_0_S200x1 : S1x200.Transposes [1, 0] S200x1
  shapeCasts_S1x200_S200 : S1x200.ShapeCasts S200
  dot_S200x12544_S200x12544_S200x200_1_1_0_0_n_n_wf : DotDims.WF S200x12544 S200x12544 S200x200 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x12544.size a ≤ S200x200704.size a
  hwx0_0 : ∀ i : grid0.Coords, EltTy.bits .bf16 = 32 ∨ (Rect.block (s := S200x200704) S200x12544.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x200x200.size a ≤ S2x200x200.size a
  hwx0_1 : ∀ i : grid0.Coords, EltTy.bits .f32 = 32 ∨ (Rect.block (s := S2x200x200) S1x200x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x200x1.size a ≤ S2x200x1.size a
  hwx0_2 : ∀ i : grid0.Coords, EltTy.bits .f32 = 32 ∨ (Rect.block (s := S2x200x1) S1x200x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x200x200.size a ≤ S2x200x200.size a
  hwx1_0 : ∀ i : grid1.Coords, EltTy.bits .f32 = 32 ∨ (Rect.block (s := S2x200x200) S2x200x200.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x200x1.size a ≤ S2x200x1.size a
  hwx1_1 : ∀ i : grid1.Coords, EltTy.bits .f32 = 32 ∨ (Rect.block (s := S2x200x1) S2x200x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S200x1.size a ≤ S200x1.size a
  hwx1_2 : ∀ i : grid1.Coords, EltTy.bits .i32 = 32 ∨ (Rect.block (s := S200x1) S200x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x200.size a ≤ S1x200.size a
  hwx1_3 : ∀ i : grid1.Coords, EltTy.bits .f32 = 32 ∨ (Rect.block (s := S1x200) S1x200.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x200.size a ≤ S1x200.size a
  hwx1_4 : ∀ i : grid1.Coords, EltTy.bits .f32 = 32 ∨ (Rect.block (s := S1x200) S1x200.size (cc1_transform_4 i) (hinb1_4 i)).WholeWords (EltTy.packing .f32)

variable [Facts₀]

def dot_S200x12544_S200x12544_S200x200_1_1_0_0_n_n : DotDims S200x12544 S200x12544 S200x200 where
  lhsContracting := [1]
  rhsContracting := [1]
  lhsNonContracting := [0]
  rhsNonContracting := [0]
  lhsBatch := []
  rhsBatch := []
  wf := dot_S200x12544_S200x12544_S200x200_1_1_0_0_n_n_wf

abbrev win0_0 : Pipeline.Window sig grid0 :=
  Pipeline.Window.ofSpec (Memref.whole main_v1) S200x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S1x200x200.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S1x200x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2_0) S2x200x200.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S2x200x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S200x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x200.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x200.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S200x448x448 : Shape := ⟨3, ![200, 448, 448]⟩
abbrev S200 : Shape := ⟨1, ![200]⟩
abbrev S200x200704 : Shape := ⟨2, ![200, 200704]⟩
abbrev S_ : Shape := ⟨0, ![]⟩
abbrev S200704x200 : Shape := ⟨2, ![200704, 200]⟩
abbrev S200x200 : Shape := ⟨2, ![200, 200]⟩
abbrev S1x200 : Shape := ⟨2, ![1, 200]⟩
abbrev S200x1 : Shape := ⟨2, ![200, 1]⟩

abbrev nBuf : Space → Nat
  | .hbm => 54
  | .vmem => 0
  | .smem => 0
  | _ => 0

abbrev bufTy : (tb : Table) → Fin (tcTables nBuf tb) → BufTy
  | .hbm, ⟨0, _⟩ => ⟨S200x448x448, .f32⟩
  | .hbm, ⟨1, _⟩ => ⟨S200, .f32⟩
  | .hbm, ⟨2, _⟩ => ⟨S200, .i32⟩
  | .hbm, ⟨3, _⟩ => ⟨S200x200704, .f32⟩
  | .hbm, ⟨4, _⟩ => ⟨S_, .f32⟩
  | .hbm, ⟨5, _⟩ => ⟨S200, .f32⟩
  | .hbm, ⟨6, _⟩ => ⟨S200704x200, .f32⟩
  | .hbm, ⟨7, _⟩ => ⟨S200x200, .f32⟩
  | .hbm, ⟨8, _⟩ => ⟨S1x200, .f32⟩
  | .hbm, ⟨9, _⟩ => ⟨S200x1, .f32⟩
  | .hbm, ⟨10, _⟩ => ⟨S200x200, .f32⟩
  | .hbm, ⟨11, _⟩ => ⟨S200x200, .f32⟩
  | .hbm, ⟨12, _⟩ => ⟨S200x200, .f32⟩
  | .hbm, ⟨13, _⟩ => ⟨S200x200, .f32⟩
  | .hbm, ⟨14, _⟩ => ⟨S200x200, .f32⟩
  | .hbm, ⟨15, _⟩ => ⟨S200x200, .i32⟩
  | .hbm, ⟨16, _⟩ => ⟨S_, .i32⟩
  | .hbm, ⟨17, _⟩ => ⟨S200x200, .i32⟩
  | .hbm, ⟨18, _⟩ => ⟨S200x200, .i32⟩
  | .hbm, ⟨19, _⟩ => ⟨S200x200, .i32⟩
  | .hbm, ⟨20, _⟩ => ⟨S200x200, .i1⟩
  | .hbm, ⟨21, _⟩ => ⟨S_, .f32⟩
  | .hbm, ⟨22, _⟩ => ⟨S200x200, .f32⟩
  | .hbm, ⟨23, _⟩ => ⟨S200x200, .f32⟩
  | .hbm, ⟨24, _⟩ => ⟨S1x200, .i32⟩
  | .hbm, ⟨25, _⟩ => ⟨S200x1, .i32⟩
  | .hbm, ⟨26, _⟩ => ⟨S200x200, .i32⟩
  | .hbm, ⟨27, _⟩ => ⟨S200x200, .i32⟩
  | .hbm, ⟨28, _⟩ => ⟨S200x200, .i1⟩
  | .hbm, ⟨29, _⟩ => ⟨S200x200, .f32⟩
  | .hbm, ⟨30, _⟩ => ⟨S200x200, .i32⟩
  | .hbm, ⟨31, _⟩ => ⟨S_, .i32⟩
  | .hbm, ⟨32, _⟩ => ⟨S200x200, .i32⟩
  | .hbm, ⟨33, _⟩ => ⟨S200x200, .i32⟩
  | .hbm, ⟨34, _⟩ => ⟨S200x200, .i32⟩
  | .hbm, ⟨35, _⟩ => ⟨S200x200, .i1⟩
  | .hbm, ⟨36, _⟩ => ⟨S_, .f32⟩
  | .hbm, ⟨37, _⟩ => ⟨S200x200, .f32⟩
  | .hbm, ⟨38, _⟩ => ⟨S200x200, .f32⟩
  | .hbm, ⟨39, _⟩ => ⟨S200x200, .f32⟩
  | .hbm, ⟨40, _⟩ => ⟨S_, .f32⟩
  | .hbm, ⟨41, _⟩ => ⟨S200, .f32⟩
  | .hbm, ⟨42, _⟩ => ⟨S200x1, .f32⟩
  | .hbm, ⟨43, _⟩ => ⟨S200x1, .f32⟩
  | .hbm, ⟨44, _⟩ => ⟨S200x200, .f32⟩
  | .hbm, ⟨45, _⟩ => ⟨S200x200, .f32⟩
  | .hbm, ⟨46, _⟩ => ⟨S200x200, .f32⟩
  | .hbm, ⟨47, _⟩ => ⟨S_, .f32⟩
  | .hbm, ⟨48, _⟩ => ⟨S200x200, .f32⟩
  | .hbm, ⟨49, _⟩ => ⟨S200x200, .f32⟩
  | .hbm, ⟨50, _⟩ => ⟨S200x200, .f32⟩
  | .hbm, ⟨51, _⟩ => ⟨S_, .f32⟩
  | .hbm, ⟨52, _⟩ => ⟨S200, .f32⟩
  | .hbm, ⟨53, _⟩ => ⟨S200, .f32⟩
  | _, _ => ⟨S200x448x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_cst : Ref sig .tc := ⟨.hbm, 21, rfl⟩
abbrev main_call0_v5 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_cst : Ref sig .tc := ⟨.hbm, 36, rfl⟩
abbrev main_call1_v5 : Ref sig .tc := ⟨.hbm, 37, rfl⟩
abbrev main_v18 : Ref sig .tc := ⟨.hbm, 38, rfl⟩
abbrev main_v19 : Ref sig .tc := ⟨.hbm, 39, rfl⟩
abbrev main_cst_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩

abbrev nD : Nat := 1
abbrev τ : Topo := Topo.v7x

variable {F : FTy → Type} [FloatOps F]

class Facts₀ : Prop where
  shapeCasts_S200x448x448_S200x200704 : S200x448x448.ShapeCasts S200x200704
  reducesTo_S200x200704_S200_d1 : S200x200704.ReducesTo [1] S200
  h_S_ : 0 < S_.numel
  transposes_S200x200704_S200704x200_1_0 : S200x200704.Transposes [1, 0] S200704x200
  bcast_S200_S1x200_1 : S200.BroadcastsInDim S1x200 (![1] : Fin 1 → Fin S1x200.rank)
  bcast_S200_S200x1_0 : S200.BroadcastsInDim S200x1 (![0] : Fin 1 → Fin S200x1.rank)
  bcast_S1x200_S200x200_0_1 : S1x200.BroadcastsInDim S200x200 (![0, 1] : Fin 2 → Fin S200x200.rank)
  bcast_S200x1_S200x200_0_1 : S200x1.BroadcastsInDim S200x200 (![0, 1] : Fin 2 → Fin S200x200.rank)
  bcast_S_S200x200 : S_.BroadcastsInDim S200x200 (![] : Fin 0 → Fin S200x200.rank)
  reducesTo_S200x200_S200_d0 : S200x200.ReducesTo [0] S200
  dot_S200x200704_S200704x200_S200x200_1_0_0_1_n_n_wf : DotDims.WF S200x200704 S200704x200 S200x200 [1] [0] [0] [1] [] []

variable [Facts₀]

def dot_S200x200704_S200704x200_S200x200_1_0_0_1_n_n : DotDims S200x200704 S200704x200 S200x200 where
  lhsContracting := [1]
  rhsContracting := [0]
  lhsNonContracting := [0]
  rhsNonContracting := [1]
  lhsBatch := []
  rhsBatch := []
  wf := dot_S200x200704_S200704x200_S200x200_1_0_0_1_n_n_wf

class Facts : Prop extends Facts₀ where

variable [Facts]
-- ==== Proof.NmsRun.lean ====
/-
  The idealized kernel's whole run with its result named.

  The program is five stretches: two host reshapes (and a change of float format), the statistics kernel, two more
  host reshapes, the decay kernel, and a last reshape. Each stretch takes the buffers' contents at its entry to their
  contents at its exit; folding the five from the launch memory gives the contents at the return. Every weakly fair
  execution terminates, faults nowhere, leaves the three arguments as launched, and leaves the result buffer at that
  fold's value.
-/
import proofs.«126792_j10084583211138_2_alg».proof.Proof.Gen.KernelIdeal.Frame

set_option maxRecDepth 16384

noncomputable section

namespace Cert.MatrixNms.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.KernelIdeal.Facts]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the value the five
    stretches' fold gives it and the arguments as launched. -/
theorem run : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.MatrixNms.Run

end
-- ==== Proof.NmsStatsPieces.lean ====
/-
  The first kernel (the per-core statistics) at one grid point, as values.

  At a point that opens a core's run of tiles the two output blocks are first reset to zero and the body then adds the
  tile's Gram matrix (the tile times its own transpose) to the first and the tile's row sums to the second; at every
  other point it adds them to what the previous point left. So each point's outputs are the body's two arithmetic
  terms of the tile and of either the zero blocks or the running blocks.
-/
import proofs.«126792_j10084583211138_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.MatrixNms.Stats

open Cert.KernelIdeal Cert.KernelIdeal.Gen

variable {F : FTy → Type} [FloatOps F] [Cert.KernelIdeal.Facts]

theorem hz3 : (![0, 0, 0] : Fin 3 → Nat) = fun _ => 0 := funext fun a => by fin_cases a <;> rfl
theorem hz2 : (![0, 0] : Fin 2 → Nat) = fun _ => 0 := funext fun a => by fin_cases a <;> rfl

/-- A continuing point leaves, in the Gram block holding `xo1`, `xo1` plus the tile's Gram matrix. -/
theorem out_B_1 (c : Dev nD) (i : grid0.Coords) (arg2 : Memref sig .tc .vmem S200x12544 .bf16) (harg2 : arg2.IsWhole) (arg3 : Memref sig .tc .vmem S1x200x200 .f32) (harg3 : arg3.IsWhole) (arg4 : Memref sig .tc .vmem S1x200x1 .f32) (harg4 : arg4.IsWhole) (hc0 : ¬cond0_0 i)
    (x0 : Vec F S200x12544 .bf16) (xo1 : Vec F S1x200x200 .f32) (xo2 : Vec F S1x200x1 .f32) :
    out0_B_1 c i arg2 harg2 arg3 harg3 arg4 harg4 hc0 x0 xo1 xo2 = k0_pay4 x0 xo1 := by
  unfold out0_B_1
  rw [View.read_writes_eq_canon _ _ _ (cover0_B_1 c i arg2 harg2 arg3 harg3 arg4 harg4 hc0 x0 xo1 xo2)]
  unfold kernelRun0_B
  dsimp only
  rw [View.canon_unit_zero hz3]
  simp only [View.readAt_eq_ld, harg2.read_unread, harg3.read_unread, View.ld_unit_zero (S := S200x12544) hz2,
    View.ld_unit_zero (S := S1x200x200) hz3]

/-- A continuing point leaves, in the row-sum block holding `xo2`, `xo2` plus the tile's row sums. -/
theorem out_B_2 (c : Dev nD) (i : grid0.Coords) (arg2 : Memref sig .tc .vmem S200x12544 .bf16) (harg2 : arg2.IsWhole) (arg3 : Memref sig .tc .vmem S1x200x200 .f32) (harg3 : arg3.IsWhole) (arg4 : Memref sig .tc .vmem S1x200x1 .f32) (harg4 : arg4.IsWhole) (hc0 : ¬cond0_0 i)
    (x0 : Vec F S200x12544 .bf16) (xo1 : Vec F S1x200x200 .f32) (xo2 : Vec F S1x200x1 .f32) :
    out0_B_2 c i arg2 harg2 arg3 harg3 arg4 harg4 hc0 x0 xo1 xo2 = k0_pay5 x0 xo2 := by
  unfold out0_B_2
  rw [View.read_writes_eq_canon _ _ _ (cover0_B_2 c i arg2 harg2 arg3 harg3 arg4 harg4 hc0 x0 xo1 xo2)]
  unfold kernelRun0_B
  dsimp only
  rw [View.canon_unit_zero hz3]
  simp only [View.readAt_eq_ld, harg2.read_unread, harg4.read_unread, View.ld_unit_zero (S := S200x12544) hz2,
    View.ld_unit_zero (S := S1x200x1) hz3]

/-- An opening point leaves the zero block plus the tile's Gram matrix. -/
theorem out_A_1 (c : Dev nD) (i : grid0.Coords) (arg2 : Memref sig .tc .vmem S200x12544 .bf16) (harg2 : arg2.IsWhole) (arg3 : Memref sig .tc .vmem S1x200x200 .f32) (harg3 : arg3.IsWhole) (arg4 : Memref sig .tc .vmem S1x200x1 .f32) (harg4 : arg4.IsWhole) (hc0 : cond0_0 i)
    (x0 : Vec F S200x12544 .bf16) :
    out0_A_1 c i arg2 harg2 arg3 harg3 arg4 harg4 hc0 x0 = k0_pay4 x0 (k0_pay1 (F := F)) := by
  unfold out0_A_1
  rw [View.read_writes_eq_canon _ _ _ (cover0_A_1 c i arg2 harg2 arg3 harg3 arg4 harg4 hc0 x0)]
  unfold kernelRun0_A
  dsimp only
  sl_unfold_words
  rw [View.canon_cons_unit_zero (S := S1x200x200) hz3, View.readCov_unit_zero (S := S1x200x200) _ hz3]
  simp only [View.readAt_eq_ld, harg2.read_unread, View.ld_unit_zero (S := S200x12544) hz2,
    View.ld_unit_zero (S := S1x200x200) hz3]

/-- An opening point leaves the zero column plus the tile's row sums. -/
theorem out_A_2 (c : Dev nD) (i : grid0.Coords) (arg2 : Memref sig .tc .vmem S200x12544 .bf16) (harg2 : arg2.IsWhole) (arg3 : Memref sig .tc .vmem S1x200x200 .f32) (harg3 : arg3.IsWhole) (arg4 : Memref sig .tc .vmem S1x200x1 .f32) (harg4 : arg4.IsWhole) (hc0 : cond0_0 i)
    (x0 : Vec F S200x12544 .bf16) :
    out0_A_2 c i arg2 harg2 arg3 harg3 arg4 harg4 hc0 x0 = k0_pay5 x0 (k0_pay2 (F := F)) := by
  unfold out0_A_2
  rw [View.read_writes_eq_canon _ _ _ (cover0_A_2 c i arg2 harg2 arg3 harg3 arg4 harg4 hc0 x0)]
  unfold kernelRun0_A
  dsimp only
  sl_unfold_words
  rw [View.canon_cons_unit_zero (S := S1x200x1) hz3, View.readCov_unit_zero (S := S1x200x1) _ hz3]
  simp only [View.readAt_eq_ld, harg2.read_unread, View.ld_unit_zero (S := S200x12544) hz2,
    View.ld_unit_zero (S := S1x200x1) hz3]

end Cert.MatrixNms.Stats

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.NmsStatsTile.lean ====
/-
  The first kernel's two arithmetic terms read entry by entry, over exact values.

  For a tile `x` (200 rows, 12544 columns) and a running Gram block `v`, the Gram term at (i, j) is
  v(i, j) + Σ_q x(i, q)·x(j, q); for a running column `v` the row-sum term at i is v(i) + Σ_q x(i, q).
  The blocks a core's first tile starts from are zero.
-/
import proofs.«126792_j10084583211138_2_alg».proof.Proof.Gen.KernelIdeal.Frame
import proofs.«126792_j10084583211138_2_alg».proof.Proof.LibColumnCast
import Idealize.ShloMosaic.Lib.ValueIdx
import Idealize.ShloMosaic.Lib.ValueLayout
import Idealize.ShloMosaic.PureOps.Ideal.Laws
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.MatrixNms.Stats

open Cert.KernelIdeal Cert.KernelIdeal.Gen

variable [Cert.KernelIdeal.Facts]
open ValueIdx

local notation "DD" => dot_S200x12544_S200x12544_S200x200_1_1_0_0_n_n

theorem gram_lhs_0 (i : S200x200.Idx) (q : (DD).contr.Idx) : ((DD).lhsIdx i q 0).val = (i 0).val := by
  unfold DotDims.lhsIdx
  rw [dif_neg (show ¬(0 : Fin S200x12544.rank) ∈ (DD).lhsBatch by decide), dif_pos (show (0 : Fin S200x12544.rank) ∈ (DD).lhsNonContracting by decide)]
  rfl
theorem gram_lhs_1 (i : S200x200.Idx) (q : (DD).contr.Idx) : ((DD).lhsIdx i q 1).val = (q ⟨0, by decide⟩).val :=
  (DD).lhsIdx_val_of_single rfl i q
theorem gram_rhs_0 (i : S200x200.Idx) (q : (DD).contr.Idx) : ((DD).rhsIdx i q 0).val = (i 1).val := by
  unfold DotDims.rhsIdx
  rw [dif_neg (show ¬(0 : Fin S200x12544.rank) ∈ (DD).rhsBatch by decide), dif_pos (show (0 : Fin S200x12544.rank) ∈ (DD).rhsNonContracting by decide)]
  rfl
theorem gram_rhs_1 (i : S200x200.Idx) (q : (DD).contr.Idx) : ((DD).rhsIdx i q 1).val = (q ⟨0, by decide⟩).val :=
  (DD).rhsIdx_val_of_single rfl i q

/-- The tile's Gram matrix: entry (i, j) is the inner product of rows i and j. -/
theorem gram_apply (A : FVec Ideal S200x12544 .bf16) (i j : Fin 200) :
    matmul (DD) none A A (constant (F := Ideal) S200x200 .f32 0x00000000#32) (ix2 i j)
      = ∑ q : Fin 12544, A (ix2 i q) * A (ix2 j q) := by
  simp only [matmul]
  rw [Ideal.matmul_constant_zero_apply, ← Equiv.sum_comp (ValueIdx.contrEquiv1 (DD) 12544 rfl rfl).symm]
  refine Finset.sum_congr rfl fun k _ => ?_
  have hk := ValueIdx.contrEquiv1_symm_val (DD) 12544 rfl rfl k
  have el : (DD).lhsIdx (ix2 i j) ((ValueIdx.contrEquiv1 (DD) 12544 rfl rfl).symm k) = ix2 i k := funext fun a => Fin.ext (by
    match a with
    | ⟨0, _⟩ => exact gram_lhs_0 _ _
    | ⟨1, _⟩ => exact (gram_lhs_1 _ _).trans hk)
  have er : (DD).rhsIdx (ix2 i j) ((ValueIdx.contrEquiv1 (DD) 12544 rfl rfl).symm k) = ix2 j k := funext fun a => Fin.ext (by
    match a with
    | ⟨0, _⟩ => exact gram_rhs_0 _ _
    | ⟨1, _⟩ => exact (gram_rhs_1 _ _).trans hk)
  rw [el, er]

/-- The Gram term at (i, j): the running entry plus the inner product of the tile's rows i and j. -/
theorem pay4_apply (x : Vec Ideal S200x12544 .bf16) (v : Vec Ideal S1x200x200 .f32) (i j : Fin 200) :
    k0_pay4 (F := Ideal) x v (ix3 0 i j) = v (ix3 0 i j) + ∑ q : Fin 12544, x (ix2 i q) * x (ix2 j q) := by
  unfold k0_pay4 k0_pay3
  dsimp only
  rw [shapeCast_ab_1ab_apply, addf_apply, shapeCast_1ab_ab_apply, shapeCast_self, gram_apply]

/-- A sum along the tile's columns from the zero accumulator: entry i is the sum of row i. -/
theorem rowsum_apply (A : FVec Ideal S200x12544 .f32) (hφ : FKind.Formats .f32)
    (hacc : (0x00000000#32 : BitVec 32) = 0x00000000#32) (i : Fin 200) :
    multiReduction .add [1] S200 A 0x00000000#32 reduces_S200x12544_S200 hφ hacc (ix1 i) = ∑ q : Fin 12544, A (ix2 i q) := by
  refine (Ideal.multiReduction_add_single A 0x00000000#32 reduces_S200x12544_S200 hφ hacc (ix1 i)).trans ?_
  refine Finset.sum_congr rfl fun q _ => ?_
  exact congrArg A (funext fun a => Fin.ext (by match a with | ⟨0, _⟩ => rfl | ⟨1, _⟩ => rfl))

/-- The row-sum term at i: the running entry plus the sum of the tile's row i. -/
theorem pay5_apply (x : Vec Ideal S200x12544 .bf16) (v : Vec Ideal S1x200x1 .f32) (i : Fin 200) :
    k0_pay5 (F := Ideal) x v (ix3 0 i 0) = v (ix3 0 i 0) + ∑ q : Fin 12544, x (ix2 i q) := by
  unfold k0_pay5 k0_pay3
  dsimp only
  rw [shapeCast_ab_1ab_apply, addf_apply, shapeCast_1ab_ab_apply, Cert.LibColumnCast.shapeCast_a_a1_apply, shapeCast_self]
  exact congrArg (_ + ·) (rowsum_apply _ _ _ i)

/-- The Gram block a core's first tile starts from is zero. -/
theorem pay1_apply (i j : Fin 200) : k0_pay1 (F := Ideal) (ix3 0 i j) = 0 := by
  unfold k0_pay1
  rw [shapeCast_ab_1ab_apply]
  exact Ideal.ofBits_zero_f32

/-- The row-sum column a core's first tile starts from is zero. -/
theorem pay2_apply (i : Fin 200) : k0_pay2 (F := Ideal) (ix3 0 i 0) = 0 := by
  unfold k0_pay2
  rw [shapeCast_ab_1ab_apply]
  exact Ideal.ofBits_zero_f32

end Cert.MatrixNms.Stats

end
-- ==== Proof.LibRunningSum.lean ====
/-
  Sums that restart every eight steps, and sums over a product range.

  * `running_sum8`: a sequence that restarts at every multiple of eight (`u n = g n` there) and otherwise adds the new
    term to its previous value is, at step `n`, the sum of `g` over the steps of `n`'s own run of eight up to `n`.
  * `sum_fin_mul`: a sum over `Fin (m · n)` is the double sum over the `m` blocks of `n` consecutive positions.
-/
import Mathlib.Algebra.BigOperators.Fin
import Mathlib.Algebra.BigOperators.Intervals
import Mathlib.Tactic.Ring
import Mathlib.Logic.Equiv.Fin.Basic

namespace Cert.LibRunningSum

/-- A sequence restarted at every multiple of eight and otherwise extended by one term is the partial sum over its
    current run of eight. -/
theorem running_sum8 {M : Type*} [AddCommMonoid M] (N : ℕ) (u g : ℕ → M)
    (h0 : 0 < N → u 0 = g 0)
    (hA : ∀ n, n + 1 < N → (n + 1) % 8 = 0 → u (n + 1) = g (n + 1))
    (hB : ∀ n, n + 1 < N → (n + 1) % 8 ≠ 0 → u (n + 1) = u n + g (n + 1)) :
    ∀ n, n < N → u n = ∑ k ∈ Finset.range (n % 8 + 1), g (n / 8 * 8 + k) := by
  intro n
  induction n with
  | zero => intro h; simp [h0 h]
  | succ n ih =>
    intro h
    by_cases hm : (n + 1) % 8 = 0
    · have e3 : (n + 1) / 8 * 8 = n + 1 := by omega
      rw [hA n h hm, hm, e3]
      simp
    · have e1 : (n + 1) % 8 = n % 8 + 1 := by omega
      have e2 : (n + 1) / 8 = n / 8 := by omega
      have e3 : n / 8 * 8 + (n % 8 + 1) = n + 1 := by omega
      rw [hB n h hm, ih (by omega), e1, e2, Finset.sum_range_succ _ (n % 8 + 1), e3]

/-- A sum over `Fin (m · n)` is the sum over the `m` blocks of the sums over each block's `n` positions. -/
theorem sum_fin_mul {M : Type*} [AddCommMonoid M] (m n : ℕ) (f : Fin (m * n) → M) :
    ∑ p, f p = ∑ t : Fin m, ∑ q : Fin n, f ⟨t.val * n + q.val,
      Nat.lt_of_lt_of_le (Nat.add_lt_add_left q.isLt _) (by rw [← Nat.succ_mul]; exact Nat.mul_le_mul_right _ t.isLt)⟩ := by
  rw [← finProdFinEquiv.sum_comp, Fintype.sum_prod_type]
  refine Finset.sum_congr rfl fun t _ => Finset.sum_congr rfl fun q _ => congrArg f (Fin.ext ?_)
  simp [finProdFinEquiv]
  ring

end Cert.LibRunningSum
-- ==== Proof.NmsStatsRun.lean ====
/-
  The statistics kernel's two result arrays, entry by entry.

  The sixteen grid points are two runs of eight (one per core); point t reads tile t of the flat masks (columns
  12544·t … 12544·t + 12543). Within a run each point adds its tile's Gram matrix and row sums to what the point
  before left, the run's first point starting from zero; the run's last point writes the blocks back. So block `a`
  of the Gram array holds, at (i, j), the sum over the run's eight tiles of the tiles' inner products of rows i and j,
  and block `a` of the row-sum array holds, at i, the sum over those tiles of row i's tile sums.
-/
import proofs.«126792_j10084583211138_2_alg».proof.Proof.Gen.KernelIdeal.Frame
import proofs.«126792_j10084583211138_2_alg».proof.Proof.NmsStatsPieces
import proofs.«126792_j10084583211138_2_alg».proof.Proof.NmsStatsTile
import proofs.«126792_j10084583211138_2_alg».proof.Proof.LibRunningSum
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.MatrixNms.Stats

open Cert.KernelIdeal Cert.KernelIdeal.Gen ValueIdx

variable (V : (c : Dev nD) → (b : Ref sig .tc) → Buf (Elt Ideal) ((c : Thread nD τ).loc b))

/-- The printed index maps, decided over the grid: point t reads tile t; both outputs' block index is the core t / 8. -/
theorem idx_facts : ∀ t : Fin cfg0.N, win0_0.index t (0 : Fin 2) = 0 ∧ win0_0.index t (1 : Fin 2) = t.val
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

/-- The flat masks as the statistics kernel finds them. -/
abbrev flat (c : Dev nD) : S200x200704.Idx → EReal := V c main_v1

/-- Tile t's entry (i, q) is the flat masks' entry (i, 12544·t + q). -/
theorem blk_read (c : Dev nD) (t : Fin cfg0.N) (i : Fin 200) (q : Fin 12544) :
    (iblk0 V c 0 t : Vec Ideal S200x12544 .bf16) (ix2 i q)
      = flat V c (ix2 i ⟨t.val * 12544 + q.val, by have := lt_of_lt_of_eq t.isLt (show cfg0.N = 16 from N_0); have := q.isLt; omega⟩) := by
  obtain ⟨e0, e1, -⟩ := idx_facts t
  unfold iblk0
  rw [View.read_apply]
  show V c main_v1 _ = V c main_v1 _
  congr 1
  funext a
  apply Fin.ext
  match a with
  | ⟨0, _⟩ => show win0_0.index t (0 : Fin 2) * 200 + 1 * i.val = i.val; rw [e0]; omega
  | ⟨1, _⟩ => show win0_0.index t (1 : Fin 2) * 12544 + 1 * q.val = t.val * 12544 + q.val; rw [e1]; omega

/-- Tile n's Gram entry (i, j): the inner product of rows i and j over the tile's columns (zero past the last tile). -/
def tileGram (c : Dev nD) (i j : Fin 200) (n : ℕ) : EReal :=
  if h : n < 16 then ∑ q : Fin 12544, flat V c (ix2 i ⟨n * 12544 + q.val, by have := q.isLt; omega⟩)
    * flat V c (ix2 j ⟨n * 12544 + q.val, by have := q.isLt; omega⟩) else 0

/-- Tile n's row sum at i (zero past the last tile). -/
def tileArea (c : Dev nD) (i : Fin 200) (n : ℕ) : EReal :=
  if h : n < 16 then ∑ q : Fin 12544, flat V c (ix2 i ⟨n * 12544 + q.val, by have := q.isLt; omega⟩) else 0

/-- The Gram term at point t over a running block `v`: `v` plus tile t's Gram entry. -/
theorem gram_step (c : Dev nD) (t : Fin cfg0.N) (v : Vec Ideal S1x200x200 .f32) (i j : Fin 200) :
    k0_pay4 (F := Ideal) (iblk0 V c 0 t) v (ix3 0 i j) = v (ix3 0 i j) + tileGram V c i j t.val := by
  have hN : t.val < 16 := lt_of_lt_of_eq t.isLt (show cfg0.N = 16 from N_0)
  refine (pay4_apply _ v i j).trans (congrArg (v (ix3 0 i j) + ·) ?_)
  unfold tileGram
  rw [dif_pos hN]
  refine Finset.sum_congr rfl fun q _ => ?_
  rw [blk_read V c t i q, blk_read V c t j q]

/-- The row-sum term at point t over a running column `v`: `v` plus tile t's row sum. -/
theorem area_step (c : Dev nD) (t : Fin cfg0.N) (v : Vec Ideal S1x200x1 .f32) (i : Fin 200) :
    k0_pay5 (F := Ideal) (iblk0 V c 0 t) v (ix3 0 i 0) = v (ix3 0 i 0) + tileArea V c i t.val := by
  have hN : t.val < 16 := lt_of_lt_of_eq t.isLt (show cfg0.N = 16 from N_0)
  refine (pay5_apply _ v i).trans (congrArg (v (ix3 0 i 0) + ·) ?_)
  unfold tileArea
  rw [dif_pos hN]
  refine Finset.sum_congr rfl fun q _ => ?_
  rw [blk_read V c t i q]

/-- After point n the Gram block holds the sum of the tiles' Gram entries over n's run of eight, up to n. -/
theorem gram_running (c : Dev nD) (i j : Fin 200) (n : ℕ) (h : n < cfg0.N) :
    (outsAt0 V c n h).1 (ix3 0 i j) = ∑ k ∈ Finset.range (n % 8 + 1), tileGram V c i j (n / 8 * 8 + k) := by
  have key := Cert.LibRunningSum.running_sum8 cfg0.N
    (fun n => if h : n < cfg0.N then (outsAt0 V c n h).1 (ix3 0 i j) else 0) (tileGram V c i j)
    (fun h => by
      simp only [dif_pos h]
      rw [show outsAt0 V c 0 h = _ from outsAt0_A V c ⟨0, h⟩ rfl]
      dsimp only
      rw [out_A_1]
      refine (gram_step V c ⟨0, h⟩ _ i j).trans ?_
      rw [pay1_apply, zero_add])
    (fun n h hm => by
      simp only [dif_pos h]
      rw [show outsAt0 V c (n + 1) h = _ from outsAt0_A V c ⟨n + 1, h⟩ hm]
      dsimp only
      rw [out_A_1]
      refine (gram_step V c ⟨n + 1, h⟩ _ i j).trans ?_
      rw [pay1_apply, zero_add])
    (fun n h hm => by
      simp only [dif_pos h, dif_pos (Nat.lt_of_succ_lt h)]
      rw [show outsAt0 V c (n + 1) h = _ from outsAt0_B V c ⟨n + 1, h⟩ hm]
      dsimp only
      rw [out_B_1]
      exact gram_step V c ⟨n + 1, h⟩ _ i j)
    n h
  simpa only [dif_pos h] using key

/-- After point n the row-sum block holds the sum of the tiles' row sums over n's run of eight, up to n. -/
theorem area_running (c : Dev nD) (i : Fin 200) (n : ℕ) (h : n < cfg0.N) :
    (outsAt0 V c n h).2 (ix3 0 i 0) = ∑ k ∈ Finset.range (n % 8 + 1), tileArea V c i (n / 8 * 8 + k) := by
  have key := Cert.LibRunningSum.running_sum8 cfg0.N
    (fun n => if h : n < cfg0.N then (outsAt0 V c n h).2 (ix3 0 i 0) else 0) (tileArea V c i)
    (fun h => by
      simp only [dif_pos h]
      rw [show outsAt0 V c 0 h = _ from outsAt0_A V c ⟨0, h⟩ rfl]
      dsimp only
      rw [out_A_2]
      refine (area_step V c ⟨0, h⟩ _ i).trans ?_
      rw [pay2_apply, zero_add])
    (fun n h hm => by
      simp only [dif_pos h]
      rw [show outsAt0 V c (n + 1) h = _ from outsAt0_A V c ⟨n + 1, h⟩ hm]
      dsimp only
      rw [out_A_2]
      refine (area_step V c ⟨n + 1, h⟩ _ i).trans ?_
      rw [pay2_apply, zero_add])
    (fun n h hm => by
      simp only [dif_pos h, dif_pos (Nat.lt_of_succ_lt h)]
      rw [show outsAt0 V c (n + 1) h = _ from outsAt0_B V c ⟨n + 1, h⟩ hm]
      dsimp only
      rw [out_B_2]
      exact area_step V c ⟨n + 1, h⟩ _ i)
    n h
  simpa only [dif_pos h] using key

/-- The Gram array after the kernel: block `a`, entry (i, j), sums the Gram entries of tiles 8a … 8a + 7. -/
def gramArr (c : Dev nD) : S2x200x200.Idx → EReal :=
  fun y => ∑ k ∈ Finset.range 8, tileGram V c (y 1) (y 2) ((y 0).val * 8 + k)

/-- The row-sum array after the kernel: block `a`, entry i, sums the row sums of tiles 8a … 8a + 7. -/
def areaArr (c : Dev nD) : S2x200x1.Idx → EReal :=
  fun y => ∑ k ∈ Finset.range 8, tileArea V c (y 1) ((y 0).val * 8 + k)

/-- What a run's last point writes back is its block of the Gram array. -/
theorem flushed1_eq (c : Dev nD) (t : Fin cfg0.N) (hf : (cfg0.win 1).flush t = true) :
    (dat0 V c).flushed 1 t = ((cfg0.win 1).blk t).view.read (Elt Ideal) (gramArr V c) := by
  have hN : t.val < 16 := lt_of_lt_of_eq t.isLt (show cfg0.N = 16 from N_0)
  have h7 : t.val % 8 = 7 := (flush0_1 t).mp hf
  obtain ⟨e0, e1, e2, e3, e4, e5, e6, e7⟩ := idx_facts t
  show (cfg0.win 1).cut (grid0.coords t) ((dat0 V c).after 1 t) = _
  rw [after0_1]
  funext y
  obtain ⟨u, i, j, rfl⟩ : ∃ (u : Fin 1) (i j : Fin 200), y = ix3 u i j := ⟨y 0, y 1, y 2, eq_ix3 y⟩
  obtain rfl : u = 0 := Subsingleton.elim _ _
  show (outsAt0 V c t.val t.isLt).1 (ix3 0 i j) = gramArr V c (((cfg0.win 1).blk t).view.emb (ix3 (0 : Fin 1) i j))
  have hemb : ((cfg0.win 1).blk t).view.emb (ix3 (0 : Fin 1) i j) = ix3 (⟨t.val / 8, by omega⟩ : Fin 2) i j := by
    funext a; apply Fin.ext
    match a with
    | ⟨0, _⟩ => show win0_1.index t (0 : Fin 3) * 1 + 1 * 0 = t.val / 8; rw [e2]; omega
    | ⟨1, _⟩ => show win0_1.index t (1 : Fin 3) * 200 + 1 * i.val = i.val; rw [e3]; omega
    | ⟨2, _⟩ => show win0_1.index t (2 : Fin 3) * 200 + 1 * j.val = j.val; rw [e4]; omega
  rw [hemb]
  show (outsAt0 V c t.val t.isLt).1 (ix3 0 i j) = ∑ k ∈ Finset.range 8, tileGram V c i j (t.val / 8 * 8 + k)
  rw [gram_running V c i j t.val t.isLt, h7]

/-- What a run's last point writes back is its block of the row-sum array. -/
theorem flushed2_eq (c : Dev nD) (t : Fin cfg0.N) (hf : (cfg0.win 2).flush t = true) :
    (dat0 V c).flushed 2 t = ((cfg0.win 2).blk t).view.read (Elt Ideal) (areaArr V c) := by
  have hN : t.val < 16 := lt_of_lt_of_eq t.isLt (show cfg0.N = 16 from N_0)
  have h7 : t.val % 8 = 7 := (flush0_2 t).mp hf
  obtain ⟨e0, e1, e2, e3, e4, e5, e6, e7⟩ := idx_facts t
  show (cfg0.win 2).cut (grid0.coords t) ((dat0 V c).after 2 t) = _
  rw [after0_2]
  funext y
  obtain ⟨u, i, z, rfl⟩ : ∃ (u : Fin 1) (i : Fin 200) (z : Fin 1), y = ix3 u i z := ⟨y 0, y 1, y 2, eq_ix3 y⟩
  obtain rfl : u = 0 := Subsingleton.elim _ _
  obtain rfl : z = 0 := Subsingleton.elim _ _
  show (outsAt0 V c t.val t.isLt).2 (ix3 0 i 0) = areaArr V c (((cfg0.win 2).blk t).view.emb (ix3 (0 : Fin 1) i (0 : Fin 1)))
  have hemb : ((cfg0.win 2).blk t).view.emb (ix3 (0 : Fin 1) i (0 : Fin 1)) = ix3 (⟨t.val / 8, by omega⟩ : Fin 2) i (0 : Fin 1) := by
    funext a; apply Fin.ext
    match a with
    | ⟨0, _⟩ => show win0_2.index t (0 : Fin 3) * 1 + 1 * 0 = t.val / 8; rw [e5]; omega
    | ⟨1, _⟩ => show win0_2.index t (1 : Fin 3) * 200 + 1 * i.val = i.val; rw [e6]; omega
    | ⟨2, _⟩ => show win0_2.index t (2 : Fin 3) * 1 + 1 * 0 = 0; rw [e7]
  rw [hemb]
  show (outsAt0 V c t.val t.isLt).2 (ix3 0 i 0) = ∑ k ∈ Finset.range 8, tileArea V c i (t.val / 8 * 8 + k)
  rw [area_running V c i t.val t.isLt, h7]

/-- An index of the Gram array is in point t's block iff each coordinate is in the block's range on its axis. -/
theorem mem_blk1 (t : Fin cfg0.N) (y : S2x200x200.Idx) :
    y ∈ ((cfg0.win 1).blk t).view.set ↔ ∀ a : Fin 3, win0_1.index t a * S1x200x200.size a ≤ (y a).val ∧ (y a).val < win0_1.index t a * S1x200x200.size a + S1x200x200.size a := by
  show y ∈ ((View.whole main_v2_0).slice (win0_1.rect t)).set ↔ _
  rw [View.set_slice_whole, Rect.mem_set_unit]
  exact Iff.rfl

/-- The same for the row-sum array. -/
theorem mem_blk2 (t : Fin cfg0.N) (y : S2x200x1.Idx) :
    y ∈ ((cfg0.win 2).blk t).view.set ↔ ∀ a : Fin 3, win0_2.index t a * S1x200x1.size a ≤ (y a).val ∧ (y a).val < win0_2.index t a * S1x200x1.size a + S1x200x1.size a := by
  show y ∈ ((View.whole main_v2_1).slice (win0_2.rect t)).set ↔ _
  rw [View.set_slice_whole, Rect.mem_set_unit]
  exact Iff.rfl

/-- Every entry of the Gram array is in the block its core's last point writes back. -/
theorem cover1 (y : S2x200x200.Idx) : ∃ t : Fin cfg0.N, (cfg0.win 1).flush t = true ∧ y ∈ ((cfg0.win 1).blk t).view.set := by
  have h0 : (y 0).val < 2 := (y 0).isLt
  have h1 : (y 1).val < 200 := (y 1).isLt
  have h2 : (y 2).val < 200 := (y 2).isLt
  have hN : cfg0.N = 16 := N_0
  let t : Fin cfg0.N := ⟨(y 0).val * 8 + 7, by omega⟩
  have ht : t.val = (y 0).val * 8 + 7 := rfl
  obtain ⟨e0, e1, e2, e3, e4, e5, e6, e7⟩ := idx_facts t
  refine ⟨t, (flush0_1 t).mpr (by omega), ?_⟩
  rw [mem_blk1]
  intro a
  match a with
  | ⟨0, _⟩ => show win0_1.index t (0 : Fin 3) * 1 ≤ (y 0).val ∧ (y 0).val < win0_1.index t (0 : Fin 3) * 1 + 1; rw [e2]; omega
  | ⟨1, _⟩ => show win0_1.index t (1 : Fin 3) * 200 ≤ (y 1).val ∧ (y 1).val < win0_1.index t (1 : Fin 3) * 200 + 200; rw [e3]; omega
  | ⟨2, _⟩ => show win0_1.index t (2 : Fin 3) * 200 ≤ (y 2).val ∧ (y 2).val < win0_1.index t (2 : Fin 3) * 200 + 200; rw [e4]; omega

/-- Every entry of the row-sum array is in the block its core's last point writes back. -/
theorem cover2 (y : S2x200x1.Idx) : ∃ t : Fin cfg0.N, (cfg0.win 2).flush t = true ∧ y ∈ ((cfg0.win 2).blk t).view.set := by
  have h0 : (y 0).val < 2 := (y 0).isLt
  have h1 : (y 1).val < 200 := (y 1).isLt
  have h2 : (y 2).val < 1 := (y 2).isLt
  have hN : cfg0.N = 16 := N_0
  let t : Fin cfg0.N := ⟨(y 0).val * 8 + 7, by omega⟩
  have ht : t.val = (y 0).val * 8 + 7 := rfl
  obtain ⟨e0, e1, e2, e3, e4, e5, e6, e7⟩ := idx_facts t
  refine ⟨t, (flush0_2 t).mpr (by omega), ?_⟩
  rw [mem_blk2]
  intro a
  match a with
  | ⟨0, _⟩ => show win0_2.index t (0 : Fin 3) * 1 ≤ (y 0).val ∧ (y 0).val < win0_2.index t (0 : Fin 3) * 1 + 1; rw [e5]; omega
  | ⟨1, _⟩ => show win0_2.index t (1 : Fin 3) * 200 ≤ (y 1).val ∧ (y 1).val < win0_2.index t (1 : Fin 3) * 200 + 200; rw [e6]; omega
  | ⟨2, _⟩ => show win0_2.index t (2 : Fin 3) * 1 ≤ (y 2).val ∧ (y 2).val < win0_2.index t (2 : Fin 3) * 1 + 1; rw [e7]; omega

/-- The Gram array after the statistics kernel. -/
theorem final1 (c : Dev nD) : (dat0 V c).arrAt 1 cfg0.N = gramArr V c :=
  (dat0 V c).arrAt_eq_of_cover 1 (gramArr V c) (flushed1_eq V c) cover1

/-- The row-sum array after the statistics kernel. -/
theorem final2 (c : Dev nD) : (dat0 V c).arrAt 2 cfg0.N = areaArr V c :=
  (dat0 V c).arrAt_eq_of_cover 2 (areaArr V c) (flushed2_eq V c) cover2

end Cert.MatrixNms.Stats

end
-- ==== Proof.NmsKernelValue.lean ====
/-
  The decay kernel's result array, and what the host stretches put in each buffer.

  The decay kernel runs at one grid point and every one of its windows is a whole array, so each input block is its
  array and the result array is the body's one stored value of the four input arrays. Around the two kernels the host
  only reshapes: the flat masks are the mask argument reshaped to 200 rows (a change of float format is the identity
  on exact values), the label column and the score row are the label and score arguments reshaped, and the program's
  result is the decay kernel's row reshaped to a vector.
-/
import proofs.«126792_j10084583211138_2_alg».proof.Proof.Gen.KernelIdeal.Frame
import proofs.«126792_j10084583211138_2_alg».proof.Proof.NmsStatsRun
import Idealize.ShloMosaic.Lib.Pipeline.Value
import Idealize.ShloMosaic.Lib.StableHlo.Run
import Idealize.ShloMosaic.Lib.Tactic
import Idealize.ShloMosaic.Lib.ValueIdx

noncomputable section

open Idealize.ShloMosaic Idealize.ShloMosaic.TcCoe Idealize.SL.Sem
open Idealize.ShloMosaic.Pipeline (Dat)

namespace Cert.MatrixNms.KerValue

open Cert.KernelIdeal Cert.KernelIdeal.Gen ValueIdx

section Region1

variable {F : FTy → Type} [FloatOps F]
variable (V : (c : Dev nD) → (b : Ref sig .tc) → Buf (Elt F) ((c : Thread nD τ).loc b))

/-- The decay kernel's windows are whole arrays: each input block is its array. -/
theorem iblk1_0 (c : Dev nD) (t : Fin cfg1.N) : iblk1 V c 0 t = V c main_v2_0 := by
  obtain rfl := fin_N1 t
  unfold iblk1
  have hz' : (fun a => win1_0.index t1_0 a * main_v2_0.ty.shape.size a) = fun _ => 0 := funext fun a => by fin_cases a <;> decide
  exact Memref.read_access_unit_zero (Elt F) main_v2_0 hz' (fun a => by rw [congrFun hz' a]; simp) (V c main_v2_0)
theorem iblk1_1 (c : Dev nD) (t : Fin cfg1.N) : iblk1 V c 1 t = V c main_v2_1 := by
  obtain rfl := fin_N1 t
  unfold iblk1
  have hz' : (fun a => win1_1.index t1_0 a * main_v2_1.ty.shape.size a) = fun _ => 0 := funext fun a => by fin_cases a <;> decide
  exact Memref.read_access_unit_zero (Elt F) main_v2_1 hz' (fun a => by rw [congrFun hz' a]; simp) (V c main_v2_1)
theorem iblk1_2 (c : Dev nD) (t : Fin cfg1.N) : iblk1 V c 2 t = V c main_v3 := by
  obtain rfl := fin_N1 t
  unfold iblk1
  have hz' : (fun a => win1_2.index t1_0 a * main_v3.ty.shape.size a) = fun _ => 0 := funext fun a => by fin_cases a <;> decide
  exact Memref.read_access_unit_zero (Elt F) main_v3 hz' (fun a => by rw [congrFun hz' a]; simp) (V c main_v3)
theorem iblk1_3 (c : Dev nD) (t : Fin cfg1.N) : iblk1 V c 3 t = V c main_v4 := by
  obtain rfl := fin_N1 t
  unfold iblk1
  have hz' : (fun a => win1_3.index t1_0 a * main_v4.ty.shape.size a) = fun _ => 0 := funext fun a => by fin_cases a <;> decide
  exact Memref.read_access_unit_zero (Elt F) main_v4 hz' (fun a => by rw [congrFun hz' a]; simp) (V c main_v4)

/-- The decay kernel's result as a function of its four input arrays. -/
abbrev decayRow (c : Dev nD) : Buf (Elt F) ((c : Thread nD τ).loc main_v5) :=
  out1_4 (V c main_v2_0) (V c main_v2_1) (V c main_v3) (V c main_v4)

/-- The one point writes that value back: the block is the whole array. -/
theorem flushed4_eq (c : Dev nD) (t : Fin cfg1.N) (hf : (cfg1.win 4).flush t = true) :
    (dat1 V c).flushed 4 t = ((cfg1.win 4).blk t).view.read (Elt F) (decayRow V c) := by
  obtain rfl := fin_N1 t
  show (cfg1.win 4).cut (grid1.coords t1_0) ((dat1 V c).after 4 t1_0) = _
  rw [after1_4, iblk1_0, iblk1_1, iblk1_2, iblk1_3]
  have hz' : (fun a => win1_4.index t1_0 a * main_v5.ty.shape.size a) = fun _ => 0 := funext fun a => by fin_cases a <;> decide
  exact (Memref.read_access_unit_zero (Elt F) main_v5 hz' (fun a => by rw [congrFun hz' a]; simp) (decayRow V c)).symm

/-- So the result array ends holding it. -/
theorem final4 (c : Dev nD) : (dat1 V c).arrAt 4 cfg1.N = decayRow V c :=
  (dat1 V c).arrAt_eq_of_cover 4 (decayRow V c) (flushed4_eq V c) fun y =>
    ⟨t1_0, flush1_4 t1_0, by
      show y ∈ ((View.whole main_v5).slice (win1_4.rect t1_0)).set
      rw [View.set_slice_whole, Rect.mem_set_unit]
      intro a
      have h0 : (y 0 : Nat) < 1 := (y 0).isLt
      have h1 : (y 1 : Nat) < 200 := (y 1).isLt
      match a with
      | ⟨0, _⟩ => show win1_4.index t1_0 0 * win1_4.size 0 ≤ (y 0 : Nat) ∧ (y 0 : Nat) < win1_4.index t1_0 0 * win1_4.size 0 + win1_4.xsize (grid1.coords t1_0) 0
                  rw [show win1_4.index t1_0 0 * win1_4.size 0 = 0 from by decide +kernel, show win1_4.xsize (grid1.coords t1_0) 0 = 1 from by decide +kernel]; omega
      | ⟨1, _⟩ => show win1_4.index t1_0 1 * win1_4.size 1 ≤ (y 1 : Nat) ∧ (y 1 : Nat) < win1_4.index t1_0 1 * win1_4.size 1 + win1_4.xsize (grid1.coords t1_0) 1
                  rw [show win1_4.index t1_0 1 * win1_4.size 1 = 0 from by decide +kernel, show win1_4.xsize (grid1.coords t1_0) 1 = 200 from by decide +kernel]; omega⟩

end Region1

section Glue

variable (m : (ℓ : Loc nD τ sig) → Buf (Elt Ideal) ℓ) (ρ : Dev nD → PrngReg)

/-- The flat masks the statistics kernel reads: the mask argument reshaped to 200 rows. -/
theorem V1_flat (c : Dev nD) : Cert.MatrixNms.Stats.flat (V1 m ρ) c
    = shapeCast S200x200704 (m ((c : Thread nD τ).loc main_arg0) : S200x448x448.Idx → EReal) shapeCasts_S200x448x448_S200x200704 := by
  show StableHlo.after hostOps0 (W0 m ρ c) (Proc.devRef .tc main_v1) = _
  after_results
  rfl

/-- The label and score arguments reach the second host stretch as launched. -/
theorem W2_arg2 (c : Dev nD) : W2 m ρ c (Proc.devRef .tc main_arg2) = m ((c : Thread nD τ).loc main_arg2) :=
  (W2_of_ne m ρ c main_arg2 (by decide)).trans
    (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem W2_arg1 (c : Dev nD) : W2 m ρ c (Proc.devRef .tc main_arg1) = m ((c : Thread nD τ).loc main_arg1) :=
  (W2_of_ne m ρ c main_arg1 (by decide)).trans
    (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The decay kernel's Gram input is the statistics kernel's Gram array. -/
theorem V3_gram (c : Dev nD) : V3 m ρ c main_v2_0 = Cert.MatrixNms.Stats.gramArr (V1 m ρ) c :=
  (StableHlo.after_of_forall_not_mem (b := Proc.devRef .tc main_v2_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_arr m ρ c 1).trans (Cert.MatrixNms.Stats.final1 (V1 m ρ) c))
/-- Its row-sum input is the statistics kernel's row-sum array. -/
theorem V3_area (c : Dev nD) : V3 m ρ c main_v2_1 = Cert.MatrixNms.Stats.areaArr (V1 m ρ) c :=
  (StableHlo.after_of_forall_not_mem (b := Proc.devRef .tc main_v2_1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_arr m ρ c 2).trans (Cert.MatrixNms.Stats.final2 (V1 m ρ) c))

/-- Its label column is the label argument reshaped. -/
theorem V3_labels (c : Dev nD) : V3 m ρ c main_v3
    = shapeCast S200x1 (m ((c : Thread nD τ).loc main_arg2)) shapeCasts_S200_S200x1 := by
  show StableHlo.after hostOps1 (W2 m ρ c) (Proc.devRef .tc main_v3) = _
  after_results
  rw [W2_arg2]
  rfl
/-- Its score row is the score argument reshaped. -/
theorem V3_scores (c : Dev nD) : V3 m ρ c main_v4
    = shapeCast S1x200 (m ((c : Thread nD τ).loc main_arg1)) shapeCasts_S200_S1x200 := by
  show StableHlo.after hostOps1 (W2 m ρ c) (Proc.devRef .tc main_v4) = _
  after_results
  rw [W2_arg1]
  rfl

/-- The program's result: the decay kernel's row, reshaped to a vector. -/
theorem W5_result (c : Dev nD) : W5 m ρ c (Proc.devRef .tc main_v6)
    = shapeCast S200 (decayRow (V3 m ρ) c) shapeCasts_S1x200_S200 := by
  show StableHlo.after hostOps2 (W4 m ρ c) (Proc.devRef .tc main_v6) = _
  after_results
  rw [show W4 m ρ c (Proc.devRef .tc main_v5) = _ from (W4_arr m ρ c 4).trans (final4 (V3 m ρ) c)]
  rfl

end Glue

end Cert.MatrixNms.KerValue

end
-- ==== Proof.NmsSpec.lean ====
/-
  Matrix non-maximum suppression, the score decay, as mathematics on the extended reals.

  From an intersection matrix `I` (entry (i, j): the overlap of masks i and j), the mask areas `a`, the labels and the
  scores:  iou(i, j) = I(i, j) / (a(j) + a(i) − I(i, j));  only pairs i < j of equal label count,
  d(i, j) = [i < j]·iou(i, j) · [i < j]·[label j = label i];  the compensation of column j is the largest d(·, j);
  the decay of (i, j) is exp(2·(comp(i)² − d(i, j)²)), its column minimum scales score j.
  The guarded quotient answers 0 where the union a(j) + a(i) − I(i, j) is not positive; where every union is
  positive the two quotients are one function.
-/
import Idealize.ShloMosaic.PureOps.Ideal
import Idealize.ShloMosaic.Lib.ValueIdx

noncomputable section

namespace Cert.MatrixNms

open Idealize.ShloMosaic

/-- Strictly-upper-triangle mask: `x` above the diagonal (row `i` < column `j`), zero on and below it. -/
def tri (i j : Fin 200) (x : EReal) : EReal := if i < j then x else 0

/-- 1 where columns' and rows' labels agree, else 0. -/
def sameLabel (lab : Fin 200 → BitVec 32) (i j : Fin 200) : EReal := if lab j = lab i then 1 else 0

/-- The decay IoU: the upper-triangle quotient times the upper-triangle label agreement. -/
def decayIou (q : Fin 200 → Fin 200 → EReal) (lab : Fin 200 → BitVec 32) (i j : Fin 200) : EReal :=
  tri i j (q i j) * tri i j (sameLabel lab i j)

/-- Column `j`'s compensation: the largest entry of column `j`. -/
def compensate (d : Fin 200 → Fin 200 → EReal) (j : Fin 200) : EReal := ⨆ i, d i j

/-- Column `j`'s decay coefficient: the least of exp(2·(comp(i)² − d(i, j)²)) over the rows `i`. -/
def decayCoeff (d : Fin 200 → Fin 200 → EReal) (j : Fin 200) : EReal :=
  ⨅ i, Ideal.exp (Ideal.ofBits .f32 0x40000000#32 * (compensate d i * compensate d i - d i j * d i j))

/-- The decayed score of candidate `j`. -/
def decayed (q : Fin 200 → Fin 200 → EReal) (lab : Fin 200 → BitVec 32) (sc : Fin 200 → EReal) (j : Fin 200) : EReal :=
  sc j * decayCoeff (decayIou q lab) j

/-- Intersection over union, unguarded. -/
def iou (I : Fin 200 → Fin 200 → EReal) (a : Fin 200 → EReal) (i j : Fin 200) : EReal :=
  Ideal.div (I i j) (a j + a i - I i j)

/-- Intersection over union, zero where the union is not positive. -/
def iouGuarded (I : Fin 200 → Fin 200 → EReal) (a : Fin 200 → EReal) (i j : Fin 200) : EReal :=
  if 0 < a j + a i - I i j then Ideal.div (I i j) (a j + a i - I i j) else 0

/-- Where every union is positive the guard never binds. -/
theorem iouGuarded_eq_iou (I : Fin 200 → Fin 200 → EReal) (a : Fin 200 → EReal)
    (h : ∀ i j, 0 < a j + a i - I i j) : iouGuarded I a = iou I a := by
  funext i j
  unfold iouGuarded iou
  rw [if_pos (h i j)]

end Cert.MatrixNms

end
-- ==== Proof.LibMinReduce.lean ====
/-
  Minimum reductions over one axis, on the extended reals.

  * `fold_min_top`: folding `min` from the top element over all of a finite type gives the infimum of the family
    (both are characterised by: `z` is below the result iff `z` is below every member).
  * `multiReduction_minimumf_single`: a vector min-reduction over one axis, read with exact values, is at each result
    index the fold of `min` from the accumulator's value over that axis's coordinates (the companion of the library's
    statement for the maximum).
  * `multiReduction_minimumf_inf`: with the accumulator `+∞` that fold is the infimum over the axis.
-/
import Idealize.ShloMosaic.PureOps.Ideal.Laws

noncomputable section

namespace Cert.LibMinReduce

open Idealize.ShloMosaic

/-- Folding `min` from `⊤` over a whole finite type is the infimum of the family. -/
theorem fold_min_top {ι : Type*} [Fintype ι] (f : ι → EReal) :
    (Finset.univ : Finset ι).fold min ⊤ f = ⨅ k, f k := by
  refine eq_of_forall_le_iff fun z => ?_
  rw [Finset.le_fold_min, le_iInf_iff]
  exact ⟨fun h k => h.2 k (Finset.mem_univ k), fun h => ⟨le_top, fun k _ => h k⟩⟩

/-- The f32 pattern of `+∞` is the top extended real. -/
theorem ofBits_inf : Ideal.ofBits .f32 0x7F800000#32 = (⊤ : EReal) := by
  simp [Ideal.ofBits, Ideal.ieee]

variable {φ : FTy}

/-- A float min-reduction over one axis, read with exact values: the fold of `min` from the accumulator's value over that
    axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- From the accumulator `+∞` (f32), a min-reduction over one axis is the infimum over that axis's coordinates. -/
theorem multiReduction_minimumf_inf {s t : Shape} {a : Fin s.rank} (src : FVec Ideal s .f32)
    (h : s.Reduces [a] t) (hφ : FKind.Formats .f32) (hacc : (0x7F800000#32 : BitVec 32) = FKind.minimumf.neutral .f32 hφ)
    (j : t.Idx) :
    multiReduction .minimumf [a] t src 0x7F800000#32 h hφ hacc j = ⨅ k : Fin (s.size a), src (h.lift j k) := by
  rw [multiReduction_minimumf_single]
  show (Finset.univ : Finset (Fin (s.size a))).fold min (Ideal.ofBits .f32 0x7F800000#32) (src ∘ h.lift j) = _
  rw [ofBits_inf, fold_min_top]
  rfl

end Cert.LibMinReduce

end
-- ==== Proof.NmsDecayKernel.lean ====
/-
  The decay step of matrix non-maximum suppression, read entry by entry on the extended reals.

  The body works on whole 200 × 200 arrays. From two stacked intersection matrices and two stacked area columns it forms
  their sums `I` and `a`, the union `a(j) + a(i) − I(i, j)`, the quotient guarded by "union > 0", and the label agreement
  `[label j = label i]`; both are kept strictly above the diagonal (column counter > row counter) and multiplied: the
  decay matrix `d`. The column maxima of `d` (a max-reduction from −∞ over the rows: a supremum) are laid back as a
  column, squared, and compared with `d²`; `exp(2·(comp(i)² − d(i, j)²))` is minimised over the rows (a min-reduction from
  +∞: an infimum) and scales the scores.

  * the loads: the two halves of a stacked array are its entries `(0, ·, ·)` and `(1, ·, ·)`;
  * the pointwise and layout operations read at an index `(i, j)`; the integer comparisons of counters below 200 are
    the order of the numbers, a widened and converted label agreement is 1 or 0;
  * `pay3_apply`: the decay matrix at `(i, j)` is the specification's `decayIou (iouGuarded I a) lab i j`;
  * `colMax`, `colMin`: the two reductions over the rows as `⨆` and `⨅` of a column;
  * `pay1_apply`: the stored row at `(0, j)` is `score j · decayCoeff d j`;
  * `out1_4_apply`: the output block at `(0, j)` is the specification's decayed score of candidate `j`.
-/
import proofs.«126792_j10084583211138_2_alg».proof.Proof.Gen.KernelIdeal.Frame
import proofs.«126792_j10084583211138_2_alg».proof.Proof.NmsSpec
import proofs.«126792_j10084583211138_2_alg».proof.Proof.LibMinReduce
import Idealize.ShloMosaic.Lib.ValueIdx
import Idealize.ShloMosaic.Lib.ValueLayout
import Idealize.ShloMosaic.Lib.Pipeline.Value
import Idealize.ShloMosaic.PureOps.Ideal.Laws

noncomputable section

namespace Cert.MatrixNms.Ker

open Idealize.ShloMosaic ValueIdx Cert.KernelIdeal Cert.KernelIdeal.Gen

variable [Cert.KernelIdeal.Facts]

section Layout
variable {α : Type}

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The loads: the two halves of the stacked arrays -/

theorem ld_r1_0 (x0 : Vec Ideal S2x200x200 .f32) (i j : Fin 200) :
    View.ld x0 r1_0 (ix3 (0 : Fin 1) i j) = x0 (ix3 0 i j) := by
  show x0 (r1_0.idx (ix3 (0 : Fin 1) i j)) = x0 (ix3 0 i j)
  refine congrArg x0 (funext fun a => Fin.ext ?_)
  match a with
  | ⟨0, _⟩ => rfl
  | ⟨1, _⟩ => show 0 + 1 * i.val = i.val; omega
  | ⟨2, _⟩ => show 0 + 1 * j.val = j.val; omega

theorem ld_r1_1 (x0 : Vec Ideal S2x200x200 .f32) (i j : Fin 200) :
    View.ld x0 r1_1 (ix3 (0 : Fin 1) i j) = x0 (ix3 1 i j) := by
  show x0 (r1_1.idx (ix3 (0 : Fin 1) i j)) = x0 (ix3 1 i j)
  refine congrArg x0 (funext fun a => Fin.ext ?_)
  match a with
  | ⟨0, _⟩ => rfl
  | ⟨1, _⟩ => show 0 + 1 * i.val = i.val; omega
  | ⟨2, _⟩ => show 0 + 1 * j.val = j.val; omega

theorem ld_r1_2 (x1 : Vec Ideal S2x200x1 .f32) (i : Fin 200) (u : Fin 1) :
    View.ld x1 r1_2 (ix3 (0 : Fin 1) i u) = x1 (ix3 0 i 0) := by
  show x1 (r1_2.idx (ix3 (0 : Fin 1) i u)) = x1 (ix3 0 i 0)
  refine congrArg x1 (funext fun a => Fin.ext ?_)
  match a with
  | ⟨0, _⟩ => rfl
  | ⟨1, _⟩ => show 0 + 1 * i.val = i.val; omega
  | ⟨2, _⟩ => show 0 + 1 * u.val = 0; omega

theorem ld_r1_3 (x1 : Vec Ideal S2x200x1 .f32) (i : Fin 200) (u : Fin 1) :
    View.ld x1 r1_3 (ix3 (0 : Fin 1) i u) = x1 (ix3 1 i 0) := by
  show x1 (r1_3.idx (ix3 (0 : Fin 1) i u)) = x1 (ix3 1 i 0)
  refine congrArg x1 (funext fun a => Fin.ext ?_)
  match a with
  | ⟨0, _⟩ => rfl
  | ⟨1, _⟩ => show 0 + 1 * i.val = i.val; omega
  | ⟨2, _⟩ => show 0 + 1 * u.val = 0; omega

/-- The zero offsets of a rank-2 whole-block access, however spelt. -/
theorem hz2 : (![0, 0] : Fin 2 → Nat) = fun _ => 0 := by
  funext a; match a with | ⟨0, _⟩ => rfl | ⟨1, _⟩ => rfl

/-! ## Pointwise operations the index lemmas of the library do not list -/

theorem cmpi_apply {s : Shape} {w : Nat} (p : CmpIPredicate) (x y : IVec s w) (i : s.Idx) :
    cmpi p x y i = IntOp.cmpi p (x i) (y i) := rfl

theorem exp_apply {s : Shape} {φ : FTy} (x : FVec Ideal s φ) (i : s.Idx) : exp x i = Ideal.exp (x i) := rfl

/-- The row counter: its entry at `(i, j)` is the word of `i`. -/
theorem iota0_apply (h : S200x200.Iotas .tc 32 [0]) (i j : Fin 200) :
    iota .tc S200x200 32 [0] h (ix2 i j) = BitVec.ofNat 32 i.val := iota_single_apply _ _ _ _ h _

/-- The column counter: its entry at `(i, j)` is the word of `j`. -/
theorem iota1_apply (h : S200x200.Iotas .tc 32 [1]) (i j : Fin 200) :
    iota .tc S200x200 32 [1] h (ix2 i j) = BitVec.ofNat 32 j.val := iota_single_apply _ _ _ _ h _

/-- A number below 200 read back from its 32-bit word as a signed integer is itself. -/
theorem toInt_ofNat_small (i : Fin 200) : (BitVec.ofNat 32 i.val).toInt = (i.val : Int) := by
  have hi := i.isLt
  have h1 : (BitVec.ofNat 32 i.val).toNat = i.val := by rw [BitVec.toNat_ofNat]; omega
  rw [BitVec.toInt_eq_toNat_of_lt (by rw [h1]; omega), h1]

/-- So the signed comparison of two such words is the order of the numbers. -/
theorem slt_ofNat (i j : Fin 200) : (BitVec.ofNat 32 i.val).slt (BitVec.ofNat 32 j.val) = decide (i < j) := by
  rw [BitVec.slt_eq_decide, toInt_ofNat_small, toInt_ofNat_small]
  exact decide_eq_decide.mpr (by rw [Fin.lt_def]; omega)

/-- "column counter > row counter", as a selector, keeps `x` strictly above the diagonal. -/
theorem select_sgt (i j : Fin 200) (x : EReal) :
    Scalar.select (IntOp.cmpi .sgt (BitVec.ofNat 32 j.val) (BitVec.ofNat 32 i.val)) x 0 = tri i j x := by
  unfold tri
  show Scalar.select (BitVec.ofBool ((BitVec.ofNat 32 i.val).slt (BitVec.ofNat 32 j.val))) x 0 = _
  rw [slt_ofNat]
  by_cases h : i < j
  · rw [if_pos h, decide_eq_true h]; exact select_one _ _
  · rw [if_neg h, decide_eq_false h]; exact select_zero _ _

/-- The guard "union > 0" as a selector is the specification's `if`. -/
theorem select_cmp_ogt (u a b : EReal) :
    Scalar.select (Ideal.cmp .ogt u 0) a b = if 0 < u then a else b := by
  unfold Scalar.select Ideal.cmp
  by_cases h : 0 < u
  · simp [h]
  · simp [h]

/-- Label agreement, widened to 32 bits and converted to a float, is 1 or 0. -/
theorem sitofp_eq (a b : BitVec 32) :
    (FloatOps.sitofp (F := Ideal) .f32 ((IntOp.cmpi .eq a b).setWidth 32) : EReal) = if a = b then 1 else 0 := by
  unfold IntOp.cmpi
  by_cases h : a = b
  · subst h; simp [FloatOps.sitofp]
  · have hb : (a == b) = false := beq_eq_false_iff_ne.mpr h
    rw [if_neg h, hb]; simp [FloatOps.sitofp]

/-! ## The decay matrix -/

/-- The body's 200 × 200 matrix at `(i, j)`: the guarded quotient of the summed intersection by the union of the summed
    areas, and the label agreement, each kept strictly above the diagonal, multiplied. -/
theorem pay3_apply (v0 v2 : Vec Ideal S1x200x200 .f32) (v5 v7 : Vec Ideal S1x200x1 .f32) (v11 : Vec Ideal S200x1 .i32) (i j : Fin 200) :
    k1_pay3 (F := Ideal) v0 v2 v5 v7 v11 (ix2 i j)
      = decayIou (iouGuarded (fun i j => v0 (ix3 0 i j) + v2 (ix3 0 i j)) (fun i => v5 (ix3 0 i 0) + v7 (ix3 0 i 0)))
          (fun i => v11 (ix2 i 0)) i j := by
  unfold k1_pay3
  simp only [mulf_apply, select_apply, cmpi_apply, sitofp_apply, extui_apply, broadcast_apply,
    cmpf_apply, divf_apply, subf_apply, addf_apply, broadcastTo_1b_ab_apply, broadcastTo_a1_ab_apply,
    shapeCast_1ab_ab_apply, shapeCast_self]
  rw [iota1_apply, iota0_apply, transpose_ix2_apply, transpose_ix2_apply]
  simp only [addf_apply, shapeCast_1ab_ab_apply, Ideal.ofBits_def, Ideal.ofBits_zero_f32, Ideal.cmpf_def, select_sgt,
    select_cmp_ogt, sitofp_eq]
  rfl

/-! ## Column maxima and minima -/

/-- Folding `max` from `⊥` over a whole finite type is the supremum of the family (both are characterised by: `z` is
    above the result iff `z` is above every member). -/
theorem fold_max_bot {ι : Type*} [Fintype ι] (f : ι → EReal) :
    (Finset.univ : Finset ι).fold max ⊥ f = ⨆ k, f k := by
  refine eq_of_forall_ge_iff fun z => ?_
  rw [Finset.fold_max_le, iSup_le_iff]
  exact ⟨fun h k => h.2 k (Finset.mem_univ k), fun h => ⟨bot_le, fun k _ => h k⟩⟩

/-- The f32 pattern of `−∞` is the bottom extended real. -/
theorem ofBits_neg_inf : Ideal.ofBits .f32 0xFF800000#32 = (⊥ : EReal) := by
  simp [Ideal.ofBits, Ideal.ieee]

/-- From the accumulator `−∞` (f32), a max-reduction over one axis is the supremum over that axis's coordinates. -/
theorem multiReduction_maximumf_sup {s t : Shape} {a : Fin s.rank} (src : FVec Ideal s .f32)
    (h : s.Reduces [a] t) (hφ : FKind.Formats .f32) (hacc : (0xFF800000#32 : BitVec 32) = FKind.maximumf.neutral .f32 hφ)
    (j : t.Idx) :
    multiReduction .maximumf [a] t src 0xFF800000#32 h hφ hacc j = ⨆ k : Fin (s.size a), src (h.lift j k) := by
  rw [Ideal.multiReduction_maximumf_single]
  show (Finset.univ : Finset (Fin (s.size a))).fold max (Ideal.ofBits .f32 0xFF800000#32) (src ∘ h.lift j) = _
  rw [ofBits_neg_inf, fold_max_bot]
  rfl

/-- Column `j` with row `k` put back is the entry `(k, j)`. -/
theorem lift_col (h : S200x200.Reduces [0] S200) (j : Fin 200) (k : Fin 200) : h.lift (ix1 j) k = ix2 k j := by
  funext c; apply Fin.ext; fin_cases c <;> rfl

/-- The max-reduction over the rows, at column `j`: the supremum of column `j`. -/
theorem colMax (src : FVec Ideal S200x200 .f32) (h : S200x200.Reduces [0] S200) (hφ : FKind.Formats .f32)
    (hacc : (0xFF800000#32 : BitVec 32) = 0xFF800000#32) (j : Fin 200) :
    multiReduction .maximumf [0] S200 src 0xFF800000#32 h hφ hacc (ix1 j) = ⨆ i : Fin 200, src (ix2 i j) :=
  (multiReduction_maximumf_sup src h hφ hacc (ix1 j)).trans (iSup_congr fun k => congrArg src (lift_col h j k))

/-- The min-reduction over the rows, at column `j`: the infimum of column `j`. -/
theorem colMin (src : FVec Ideal S200x200 .f32) (h : S200x200.Reduces [0] S200) (hφ : FKind.Formats .f32)
    (hacc : (0x7F800000#32 : BitVec 32) = 0x7F800000#32) (j : Fin 200) :
    multiReduction .minimumf [0] S200 src 0x7F800000#32 h hφ hacc (ix1 j) = ⨅ i : Fin 200, src (ix2 i j) :=
  (Cert.LibMinReduce.multiReduction_minimumf_inf src h hφ hacc (ix1 j)).trans
    (iInf_congr fun k => congrArg src (lift_col h j k))

/-- The column maxima, cast to a row and transposed to a column: entry `(i, ·)` is the supremum of column `i`. -/
theorem comp_apply (d : FVec Ideal S200x200 .f32) (hφ : FKind.Formats .f32)
    (hacc : (0xFF800000#32 : BitVec 32) = 0xFF800000#32) (i : Fin 200) (u : Fin 1) :
    transpose S200x1 [1, 0]
        (shapeCast S1x200 (multiReduction .maximumf [0] S200 d 0xFF800000#32 reduces_S200x200_S200 hφ hacc) shapeCasts_S200_S1x200)
        transposes_S1x200_p1_0_S200x1 (ix2 i u)
      = ⨆ k : Fin 200, d (ix2 k i) :=
  (transpose_ix2_apply _ _ i u).trans ((shapeCast_a_1a_apply _ _ u i).trans (colMax d _ hφ hacc i))

/-- One entry of the exponent matrix, over any column `c` of compensations and matrix `d`. -/
theorem decay_entry (c : FVec Ideal S200x1 .f32) (d : FVec Ideal S200x200 .f32) (i j : Fin 200) :
    exp (mulf (broadcast S200x200 (Scalar.ofBits (F := Ideal) .f32 0x40000000#32))
        (subf (broadcastTo S200x200 (mulf c c) broadcasts_S200x1_S200x200) (mulf d d))) (ix2 i j)
      = Ideal.exp (Ideal.ofBits .f32 0x40000000#32 * (c (ix2 i 0) * c (ix2 i 0) - d (ix2 i j) * d (ix2 i j))) := by
  simp only [exp_apply, mulf_apply, broadcast_apply, subf_apply, broadcastTo_a1_ab_apply]
  rfl

/-! ## The decayed scores -/

/-- The stored row at `(0, j)`: score `j` times the decay coefficient of column `j` of the matrix. -/
theorem pay1_apply (v15 : FVec Ideal S1x200 .f32) (v37 : FVec Ideal S200x200 .f32) (j : Fin 200) :
    k1_pay1 (F := Ideal) v15 v37 (ix2 0 j) = v15 (ix2 0 j) * decayCoeff (fun i j => v37 (ix2 i j)) j := by
  unfold k1_pay1 decayCoeff compensate
  refine (mulf_apply _ _ _).trans (congrArg (fun c => v15 (ix2 0 j) * c) ?_)
  refine (shapeCast_a_1a_apply _ _ 0 j).trans ?_
  refine (colMin _ _ _ _ j).trans (iInf_congr fun i => ?_)
  refine (decay_entry _ _ i j).trans ?_
  exact congrArg (fun c => Ideal.exp (Ideal.ofBits .f32 0x40000000#32 * (c * c - v37 (ix2 i j) * v37 (ix2 i j))))
    (comp_apply v37 _ _ i 0)

/-- The second kernel's output block at `(0, j)`: the decayed score of candidate `j`, from the summed intersections, the
    summed areas, the labels and the scores. -/
theorem out1_4_apply (x0 : Vec Ideal S2x200x200 .f32) (x1 : Vec Ideal S2x200x1 .f32) (x2 : Vec Ideal S200x1 .i32)
    (x3 : Vec Ideal S1x200 .f32) (j : Fin 200) :
    out1_4 (F := Ideal) x0 x1 x2 x3 (ix2 0 j)
      = Cert.MatrixNms.decayed
          (Cert.MatrixNms.iouGuarded (fun i j => x0 (ix3 0 i j) + x0 (ix3 1 i j)) (fun i => x1 (ix3 0 i 0) + x1 (ix3 1 i 0)))
          (fun i => x2 (ix2 i 0)) (fun j => x3 (ix2 0 j)) j := by
  unfold out1_4
  rw [View.canon_unit_zero hz2]
  simp only [View.ld_unit_zero (S := S1x200) hz2, View.ld_unit_zero (S := S200x1) hz2]
  rw [pay1_apply]
  have e2 : k1_pay2 (F := Ideal) x3 = x3 := shapeCast_self _ _
  rw [e2]
  unfold decayed
  refine congrArg (fun d => x3 (ix2 0 j) * decayCoeff d j) ?_
  funext i k
  rw [pay3_apply]
  have hI : (fun i j : Fin 200 => View.ld x0 r1_0 (ix3 (0 : Fin 1) i j) + View.ld x0 r1_1 (ix3 (0 : Fin 1) i j))
      = fun i j => x0 (ix3 0 i j) + x0 (ix3 1 i j) := by
    funext i j; rw [ld_r1_0, ld_r1_1]
  have ha : (fun i : Fin 200 => View.ld x1 r1_2 (ix3 (0 : Fin 1) i 0) + View.ld x1 r1_3 (ix3 (0 : Fin 1) i 0))
      = fun i => x1 (ix3 0 i 0) + x1 (ix3 1 i 0) := by
    funext i; rw [ld_r1_2, ld_r1_3]
  exact congrArg₂ (fun I a => decayIou (iouGuarded I a) (fun i => x2 (ix2 i 0)) i k) hI ha

end Cert.MatrixNms.Ker

end
-- ==== Proof.NmsTiles.lean ====
/-
  Sixteen tiles of 12544 consecutive positions partition the 200704 positions of a flattened mask.

  `tile f n` is the sum of f over tile n (positions n·12544 … n·12544 + 12543), and zero past the sixteenth tile. The
  tiles are taken in two groups of eight, tiles 0 … 7 and tiles 8 … 15; the two groups' sums together are the sum over
  all sixteen tiles, and since 200704 = 16 · 12544 that is the sum of f over every position. Stated over any additive
  commutative monoid: only reordering and regrouping of a finite sum is used.
-/
import proofs.«126792_j10084583211138_2_alg».proof.Proof.LibRunningSum

namespace Cert.MatrixNms.Tiles

open scoped BigOperators

/-- The sum of f over tile n: positions n·12544 + q for q below 12544; zero when there is no such tile. -/
def tile {M : Type*} [AddCommMonoid M] (f : Fin 200704 → M) (n : ℕ) : M :=
  if h : n < 16 then ∑ q : Fin 12544, f ⟨n * 12544 + q.val, by have := q.isLt; omega⟩ else 0

/-- The two groups of eight tiles together sum f over every position. -/
theorem tiles_total {M : Type*} [AddCommMonoid M] (f : Fin 200704 → M) :
    (∑ k ∈ Finset.range 8, tile f (0 * 8 + k)) + (∑ k ∈ Finset.range 8, tile f (1 * 8 + k)) = ∑ p, f p := by
  -- the sum over all positions, regrouped by tile: 200704 = 16 · 12544
  have hsplit : ∑ p, f p = ∑ t : Fin 16, ∑ q : Fin 12544,
      f ⟨t.val * 12544 + q.val, by have := t.isLt; have := q.isLt; omega⟩ :=
    Cert.LibRunningSum.sum_fin_mul 16 12544 f
  -- a tile below the sixteenth is its block's sum
  have htile : ∀ t : Fin 16, tile f t.val = ∑ q : Fin 12544,
      f ⟨t.val * 12544 + q.val, by have := t.isLt; have := q.isLt; omega⟩ :=
    fun t => dif_pos t.isLt
  simp only [Nat.zero_mul, Nat.zero_add, Nat.one_mul]
  -- tiles 0 … 7 and tiles 8 … 15 are tiles 0 … 15
  rw [← Finset.sum_range_add (tile f) 8 8, hsplit]
  show ∑ x ∈ Finset.range 16, tile f x = _
  rw [Finset.sum_range]
  exact Finset.sum_congr rfl fun t _ => htile t

end Cert.MatrixNms.Tiles
-- ==== Proof.NmsBridge.lean ====
/-
  The idealized kernel's result, entry by entry, as the decayed scores of the guarded quotient.

  The statistics kernel's two arrays, summed over the two cores, are the full intersection matrix and the mask areas
  of the flat masks: the sixteen tiles of 12544 columns partition the 200704 columns. The decay kernel's row is the
  decay of the guarded quotient of those, the label column and the score row; the label column and the score row are
  the arguments themselves.
-/
import proofs.«126792_j10084583211138_2_alg».proof.Proof.NmsKernelValue
import proofs.«126792_j10084583211138_2_alg».proof.Proof.NmsDecayKernel
import proofs.«126792_j10084583211138_2_alg».proof.Proof.NmsTiles
import proofs.«126792_j10084583211138_2_alg».proof.Proof.NmsSpec
import Idealize.ShloMosaic.Lib.ValueLayout
import proofs.«126792_j10084583211138_2_alg».proof.Proof.LibColumnCast

noncomputable section

open Idealize.ShloMosaic Idealize.ShloMosaic.TcCoe Idealize.SL.Sem

namespace Cert.MatrixNms.Bridge

open Cert.KernelIdeal Cert.KernelIdeal.Gen ValueIdx Cert.MatrixNms.Stats Cert.MatrixNms.KerValue

variable (m : (ℓ : Loc nD τ sig) → Buf (Elt Ideal) ℓ) (ρ : Dev nD → PrngReg)

/-- The flat masks: the mask argument reshaped to 200 rows of 200704 columns. -/
abbrev masks (c : Dev nD) : S200x200704.Idx → EReal :=
  shapeCast S200x200704 (m ((c : Thread nD τ).loc main_arg0) : S200x448x448.Idx → EReal) shapeCasts_S200x448x448_S200x200704

/-- The two cores' Gram blocks add up to the full intersection matrix. -/
theorem gram_total (c : Dev nD) (i j : Fin 200) :
    gramArr (V1 m ρ) c (ix3 0 i j) + gramArr (V1 m ρ) c (ix3 1 i j)
      = ∑ p : Fin 200704, masks m c (ix2 i p) * masks m c (ix2 j p) := by
  rw [show masks m c = flat (V1 m ρ) c from (V1_flat m ρ c).symm]
  exact Cert.MatrixNms.Tiles.tiles_total (fun p => flat (V1 m ρ) c (ix2 i p) * flat (V1 m ρ) c (ix2 j p))

/-- The two cores' row-sum blocks add up to the mask areas. -/
theorem area_total (c : Dev nD) (i : Fin 200) :
    areaArr (V1 m ρ) c (ix3 0 i 0) + areaArr (V1 m ρ) c (ix3 1 i 0) = ∑ p : Fin 200704, masks m c (ix2 i p) := by
  rw [show masks m c = flat (V1 m ρ) c from (V1_flat m ρ c).symm]
  exact Cert.MatrixNms.Tiles.tiles_total (fun p => flat (V1 m ρ) c (ix2 i p))

/-- The decay kernel's four inputs, as the arrays it reads. -/
abbrev gramIn (c : Dev nD) : Vec Ideal S2x200x200 .f32 := V3 m ρ c main_v2_0
abbrev areaIn (c : Dev nD) : Vec Ideal S2x200x1 .f32 := V3 m ρ c main_v2_1
abbrev labelIn (c : Dev nD) : Vec Ideal S200x1 .i32 := V3 m ρ c main_v3
abbrev scoreIn (c : Dev nD) : Vec Ideal S1x200 .f32 := V3 m ρ c main_v4

theorem gramIn_total (c : Dev nD) : (fun i j => gramIn m ρ c (ix3 0 i j) + gramIn m ρ c (ix3 1 i j))
    = fun i j => ∑ p : Fin 200704, masks m c (ix2 i p) * masks m c (ix2 j p) := by
  funext i j
  rw [show gramIn m ρ c = gramArr (V1 m ρ) c from V3_gram m ρ c]
  exact gram_total m ρ c i j

theorem areaIn_total (c : Dev nD) : (fun i => areaIn m ρ c (ix3 0 i 0) + areaIn m ρ c (ix3 1 i 0))
    = fun i => ∑ p : Fin 200704, masks m c (ix2 i p) := by
  funext i
  rw [show areaIn m ρ c = areaArr (V1 m ρ) c from V3_area m ρ c]
  exact area_total m ρ c i

theorem labelIn_eq (c : Dev nD) : (fun i => labelIn m ρ c (ix2 i 0))
    = fun i : Fin 200 => (m ((c : Thread nD τ).loc main_arg2) : S200.Idx → BitVec 32) (ix1 i) := by
  funext i
  rw [show labelIn m ρ c = shapeCast S200x1 (m ((c : Thread nD τ).loc main_arg2)) shapeCasts_S200_S200x1 from V3_labels m ρ c]
  exact Cert.LibColumnCast.shapeCast_a_a1_apply _ _ i 0

theorem scoreIn_eq (c : Dev nD) : (fun j => scoreIn m ρ c (ix2 0 j))
    = fun i : Fin 200 => (m ((c : Thread nD τ).loc main_arg1) : S200.Idx → EReal) (ix1 i) := by
  funext i
  rw [show scoreIn m ρ c = shapeCast S1x200 (m ((c : Thread nD τ).loc main_arg1)) shapeCasts_S200_S1x200 from V3_scores m ρ c]
  exact shapeCast_a_1a_apply _ _ 0 i

/-- The idealized kernel's result at j: the decayed score of the guarded quotient of the flat masks' intersection matrix and
    areas, the labels and the scores. -/
theorem kernel_value (c : Dev nD) (j : Fin 200) :
    (W5 m ρ c (Proc.devRef .tc main_v6) : S200.Idx → EReal) (ix1 j)
      = Cert.MatrixNms.decayed
          (Cert.MatrixNms.iouGuarded (fun i j => ∑ p : Fin 200704, masks m c (ix2 i p) * masks m c (ix2 j p))
            (fun i => ∑ p : Fin 200704, masks m c (ix2 i p)))
          (fun i => (m ((c : Thread nD τ).loc main_arg2) : S200.Idx → BitVec 32) (ix1 i))
          (fun i => (m ((c : Thread nD τ).loc main_arg1) : S200.Idx → EReal) (ix1 i)) j := by
  rw [W5_result m ρ c, shapeCast_1a_a_apply]
  refine (Cert.MatrixNms.Ker.out1_4_apply (gramIn m ρ c) (areaIn m ρ c) (labelIn m ρ c) (scoreIn m ρ c) j).trans ?_
  rw [gramIn_total m ρ c, areaIn_total m ρ c, labelIn_eq m ρ c, scoreIn_eq m ρ c]

end Cert.MatrixNms.Bridge

end
-- ==== Proof.NmsReference.lean ====
/-
  The reference program, read index by index, is the matrix-NMS score decay.

  Every stage of the reference is read at explicit coordinates: the mask areas are row sums of the flattened masks, the
  intersection matrix their pairwise inner products, the quotient entry (i, j) is I(i, j) / (a(j) + a(i) − I(i, j)); the
  two strict-upper-triangle selections keep an entry exactly where the row index is below the column index; the column
  maximum from −∞ is a supremum over the rows and the column minimum from +∞ an infimum. Composed, the result at
  candidate j is score(j) times the least decay of column j.
-/
import proofs.«126792_j10084583211138_2_alg».proof.Proof.Gen.ReferenceIdeal.Read
import proofs.«126792_j10084583211138_2_alg».proof.Proof.NmsSpec
import proofs.«126792_j10084583211138_2_alg».proof.Proof.LibMinReduce
import Idealize.ShloMosaic.Lib.WordArith

noncomputable section

namespace Cert.MatrixNms.Ref

open Idealize.ShloMosaic ValueIdx Cert.ReferenceIdeal Cert.ReferenceIdeal.Read

/-! ## Extrema of a finite family as folds -/

/-- Folding `max` from the bottom element over a whole finite type is the supremum of the family. -/
theorem fold_max_bot {ι : Type*} [Fintype ι] (f : ι → EReal) :
    (Finset.univ : Finset ι).fold max ⊥ f = ⨆ k, f k := by
  refine eq_of_forall_ge_iff fun z => ?_
  rw [Finset.fold_max_le, iSup_le_iff]
  exact ⟨fun h k => h.2 k (Finset.mem_univ k), fun h => ⟨bot_le, fun k _ => h k⟩⟩

/-- The f32 pattern of −∞ is the bottom extended real. -/
theorem ofBits_neg_inf : Ideal.ofBits .f32 0xFF800000#32 = (⊥ : EReal) := by
  simp [Ideal.ofBits, Ideal.ieee]

/-! ## The upper-triangle test on row and column numbers -/

/-- For row and column numbers below 200 the signed test "row + 0 ≥ column" holds exactly when the row is not above the
    diagonal, so selecting zero on it keeps exactly the strict upper triangle. -/
theorem triu_select (i j : Fin 200) (x : EReal) :
    Scalar.select (IntOp.cmpi .sge (IntOp.addi (BitVec.ofNat 32 i.val) 0#32) (BitVec.ofNat 32 j.val))
      (Ideal.ofBits .f32 0x00000000#32) x = tri i j x := by
  have hi : (BitVec.ofNat 32 i.val).toInt = i.val := WordArith.toInt_ofNat_small _ (by have := i.isLt; omega)
  have hj : (BitVec.ofNat 32 j.val).toInt = j.val := WordArith.toInt_ofNat_small _ (by have := j.isLt; omega)
  have h0 : IntOp.addi (BitVec.ofNat 32 i.val) 0#32 = BitVec.ofNat 32 i.val := by
    show BitVec.ofNat 32 i.val + 0#32 = _
    exact BitVec.add_zero _
  rw [h0]
  unfold tri
  by_cases h : i < j
  · rw [if_pos h]
    have hc : IntOp.cmpi .sge (BitVec.ofNat 32 i.val) (BitVec.ofNat 32 j.val) = 0#1 :=
      eq_zero_of_ne_one fun h1 => by
        have := IntOp.cmpi_sge.mp h1
        rw [hi, hj] at this
        have : j.val ≤ i.val := by exact_mod_cast this
        exact absurd h (by rw [Fin.lt_def]; omega)
    rw [hc, select_zero]
  · rw [if_neg h]
    have hc : IntOp.cmpi .sge (BitVec.ofNat 32 i.val) (BitVec.ofNat 32 j.val) = 1#1 :=
      IntOp.cmpi_sge.mpr (by
        rw [hi, hj]
        have : j.val ≤ i.val := by rw [Fin.lt_def] at h; omega
        exact_mod_cast this)
    rw [hc, select_one, Ideal.ofBits_zero_f32]

/-- Equality of two labels, converted to a float, is the label agreement. -/
theorem eq_convert (x y : BitVec 32) :
    FloatOps.uitofp (F := Ideal) .f32 (IntOp.cmpi .eq x y) = if x = y then (1 : EReal) else 0 := by
  show (((IntOp.cmpi .eq x y).toNat : ℝ) : EReal) = _
  by_cases h : x = y
  · rw [if_pos h, IntOp.cmpi_eq.mpr h]; simp
  · rw [if_neg h, eq_zero_of_ne_one (fun h1 => h (IntOp.cmpi_eq.mp h1))]; simp

/-! ## The stages at explicit coordinates -/

variable [Cert.ReferenceIdeal.Facts]

/-- The intersection matrix: pairwise inner products of the flattened masks. -/
def inter (seg : (⟨S200x448x448, .f32⟩ : BufTy).Contents (Elt Ideal)) (i j : Fin 200) : EReal :=
  ∑ p : Fin 200704, val_main_v0 (F := Ideal) seg (ix2 i p) * val_main_v0 (F := Ideal) seg (ix2 j p)

/-- The mask areas: row sums of the flattened masks. -/
def area (seg : (⟨S200x448x448, .f32⟩ : BufTy).Contents (Elt Ideal)) (i : Fin 200) : EReal :=
  ∑ p : Fin 200704, val_main_v0 (F := Ideal) seg (ix2 i p)

/-- The area stage at candidate i: the initial value 0 plus the row sum. -/
theorem v1_at (seg : (⟨S200x448x448, .f32⟩ : BufTy).Contents (Elt Ideal)) (i : Fin 200) : val_main_v1 (F := Ideal) seg (ix1 i) = area seg i := by
  rw [val_main_v1_apply, val_main_cst_apply, Ideal.ofBits_def, Ideal.ofBits_zero_f32, zero_add]
  refine Finset.sum_congr rfl fun k _ => ?_
  exact congrArg _ (funext fun a => Fin.ext (by match a with | ⟨0, _⟩ => rfl | ⟨1, _⟩ => rfl))

/-- The contraction stage at (i, j): the inner product of masks i and j. -/
theorem v3_at (seg : (⟨S200x448x448, .f32⟩ : BufTy).Contents (Elt Ideal)) (i j : Fin 200) : val_main_v3 (F := Ideal) seg (ix2 i j) = inter seg i j := by
  rw [val_main_v3_apply]
  refine Finset.sum_congr rfl fun k _ => ?_
  rw [val_main_v2_apply]
  refine congrArg₂ (· * ·) (congrArg _ ?_) (congrArg _ ?_)
  · exact funext fun a => Fin.ext (by match a with | ⟨0, _⟩ => rfl | ⟨1, _⟩ => rfl)
  · exact funext fun a => Fin.ext (by match a with | ⟨0, _⟩ => rfl | ⟨1, _⟩ => rfl)

/-- The quotient stage at (i, j) is the unguarded intersection over union. -/
theorem v10_at (seg : (⟨S200x448x448, .f32⟩ : BufTy).Contents (Elt Ideal)) (i j : Fin 200) :
    val_main_v10 (F := Ideal) seg (ix2 i j) = iou (inter seg) (area seg) i j := by
  rw [val_main_v10_apply, val_main_v9_apply, val_main_v8_apply, val_main_v6_apply, val_main_v7_apply,
    val_main_v4_apply, val_main_v5_apply, v3_at]
  have e6 : idx_main_v4 (idx_main_v6 (ix2 i j)) = ix1 j :=
    funext fun a => Fin.ext (by match a with | ⟨0, _⟩ => rfl)
  have e7 : idx_main_v5 (idx_main_v7 (ix2 i j)) = ix1 i :=
    funext fun a => Fin.ext (by match a with | ⟨0, _⟩ => rfl)
  rw [e6, e7, v1_at, v1_at]
  rfl

/-- The first triangle selection keeps the quotient above the diagonal. -/
theorem v11_at (seg : (⟨S200x448x448, .f32⟩ : BufTy).Contents (Elt Ideal)) (i j : Fin 200) :
    val_main_v11 (F := Ideal) seg (ix2 i j) = tri i j (iou (inter seg) (area seg) i j) := by
  rw [val_main_v11_apply, ← v10_at]
  exact triu_select i j _

/-- The label-agreement stage at (i, j): column j's label against row i's. -/
theorem v17_at (lab : (⟨S200, .i32⟩ : BufTy).Contents (Elt Ideal)) (i j : Fin 200) :
    val_main_v17 (F := Ideal) lab (ix2 i j) = sameLabel (fun k => lab (ix1 k)) i j := by
  rw [val_main_v17_apply, val_main_v16_apply, val_main_v14_apply, val_main_v15_apply, val_main_v12_apply,
    val_main_v13_apply]
  have e14 : idx_main_v12 (idx_main_v14 (ix2 i j)) = ix1 j :=
    funext fun a => Fin.ext (by match a with | ⟨0, _⟩ => rfl)
  have e15 : idx_main_v13 (idx_main_v15 (ix2 i j)) = ix1 i :=
    funext fun a => Fin.ext (by match a with | ⟨0, _⟩ => rfl)
  rw [e14, e15]
  exact eq_convert _ _

/-- The second triangle selection keeps the label agreement above the diagonal. -/
theorem v18_at (lab : (⟨S200, .i32⟩ : BufTy).Contents (Elt Ideal)) (i j : Fin 200) :
    val_main_v18 (F := Ideal) lab (ix2 i j) = tri i j (sameLabel (fun k => lab (ix1 k)) i j) := by
  rw [val_main_v18_apply, ← v17_at]
  exact triu_select i j _

/-- The product of the two selections is the decay IoU. -/
theorem v19_at (seg : (⟨S200x448x448, .f32⟩ : BufTy).Contents (Elt Ideal)) (lab : (⟨S200, .i32⟩ : BufTy).Contents (Elt Ideal)) (i j : Fin 200) :
    val_main_v19 (F := Ideal) seg lab (ix2 i j)
      = decayIou (iou (inter seg) (area seg)) (fun k => lab (ix1 k)) i j := by
  rw [val_main_v19_apply, v11_at, v18_at]
  rfl

/-! ## The two column reductions -/

/-- From any spelling of the bottom element. -/
theorem fold_max_of_bot {ι : Type*} [Fintype ι] (b : EReal) (hb : b = ⊥) (f : ι → EReal) :
    (Finset.univ : Finset ι).fold max b f = ⨆ k, f k := by
  subst hb; exact fold_max_bot f

/-- The minimum's twin, from any spelling of the top element. -/
theorem fold_min_of_top {ι : Type*} [Fintype ι] (b : EReal) (hb : b = ⊤) (f : ι → EReal) :
    (Finset.univ : Finset ι).fold min b f = ⨅ k, f k := by
  subst hb; exact Cert.LibMinReduce.fold_min_top f

/-- Column t of a 200 × 200 array with row k put back is entry (k, t). -/
theorem lift_rows (h : S200x200.Reduces [0] S200) (t : Fin 200) (k : Fin (S200x200.size 0)) :
    h.lift (ix1 t) k = ix2 (⟨k.val, k.isLt⟩ : Fin 200) t := by
  funext c; apply Fin.ext
  fin_cases c <;> rfl

/-- From −∞ the maximum-reduce over the rows, at column t, is the supremum of column t. -/
theorem reduce_max_rows (x : (⟨S200x200, .f32⟩ : BufTy).Contents (Elt Ideal)) (h' : S200x200.ReducesTo [0] S200)
    (hu : 0 < S_.numel) (t : Fin 200) :
    Host.reduce (FloatOps.maximumf (F := Ideal) (φ := .f32)) x (val_main_cst_0 (F := Ideal)) h' hu (ix1 t)
      = ⨆ k : Fin 200, x (ix2 k t) := by
  have h : S200x200.Reduces [0] S200 := by decide
  rw [Host.reduce_eq_fold_single (FloatOps.maximumf (F := Ideal) (φ := .f32)) x _ h' h hu]
  have hf : (x ∘ h.lift (ix1 t)) = fun k : Fin 200 => x (ix2 k t) := funext fun k => congrArg x (lift_rows h t k)
  show (Finset.univ : Finset (Fin 200)).fold max (Ideal.ofBits .f32 0xFF800000#32) (x ∘ h.lift (ix1 t)) = _
  refine Eq.trans (congrArg (fun f => Finset.fold max (Ideal.ofBits .f32 0xFF800000#32) f (Finset.univ : Finset (Fin 200))) hf) ?_
  exact fold_max_of_bot _ ofBits_neg_inf (fun k : Fin 200 => (x (ix2 k t) : EReal))

/-- From +∞ the minimum-reduce over the rows, at column t, is the infimum of column t. -/
theorem reduce_min_rows (x : (⟨S200x200, .f32⟩ : BufTy).Contents (Elt Ideal)) (h' : S200x200.ReducesTo [0] S200)
    (hu : 0 < S_.numel) (t : Fin 200) :
    Host.reduce (FloatOps.minimumf (F := Ideal) (φ := .f32)) x (val_main_cst_2 (F := Ideal)) h' hu (ix1 t)
      = ⨅ k : Fin 200, x (ix2 k t) := by
  have h : S200x200.Reduces [0] S200 := by decide
  rw [Host.reduce_eq_fold_single (FloatOps.minimumf (F := Ideal) (φ := .f32)) x _ h' h hu]
  have hf : (x ∘ h.lift (ix1 t)) = fun k : Fin 200 => x (ix2 k t) := funext fun k => congrArg x (lift_rows h t k)
  show (Finset.univ : Finset (Fin 200)).fold min (Ideal.ofBits .f32 0x7F800000#32) (x ∘ h.lift (ix1 t)) = _
  refine Eq.trans (congrArg (fun f => Finset.fold min (Ideal.ofBits .f32 0x7F800000#32) f (Finset.univ : Finset (Fin 200))) hf) ?_
  exact fold_min_of_top _ Cert.LibMinReduce.ofBits_inf (fun k : Fin 200 => (x (ix2 k t) : EReal))

/-- The column maximum of the decay IoU is its compensation. -/
theorem v20_at (seg : (⟨S200x448x448, .f32⟩ : BufTy).Contents (Elt Ideal)) (lab : (⟨S200, .i32⟩ : BufTy).Contents (Elt Ideal)) (t : Fin 200) :
    val_main_v20 (F := Ideal) seg lab (ix1 t)
      = compensate (decayIou (iou (inter seg) (area seg)) (fun k => lab (ix1 k))) t := by
  unfold val_main_v20
  rw [reduce_max_rows]
  unfold compensate
  exact iSup_congr fun k => v19_at seg lab k t

/-- The exponential stage at (i, j): exp(2·(comp(i)² − d(i, j)²)). -/
theorem v28_at (seg : (⟨S200x448x448, .f32⟩ : BufTy).Contents (Elt Ideal)) (lab : (⟨S200, .i32⟩ : BufTy).Contents (Elt Ideal)) (i j : Fin 200) :
    val_main_v28 (F := Ideal) seg lab (ix2 i j)
      = Ideal.exp (Ideal.ofBits .f32 0x40000000#32 *
          (compensate (decayIou (iou (inter seg) (area seg)) (fun k => lab (ix1 k))) i *
              compensate (decayIou (iou (inter seg) (area seg)) (fun k => lab (ix1 k))) i
            - decayIou (iou (inter seg) (area seg)) (fun k => lab (ix1 k)) i j *
              decayIou (iou (inter seg) (area seg)) (fun k => lab (ix1 k)) i j)) := by
  rw [val_main_v28_apply, val_main_v27_apply, val_main_v26_apply, val_main_cst_1_apply, val_main_v25_apply,
    val_main_v24_apply, val_main_v22_apply, val_main_v21_apply, val_main_v23_apply, v19_at]
  have e : idx_main_v21 (idx_main_v24 (ix2 i j)) = ix1 i :=
    funext fun a => Fin.ext (by match a with | ⟨0, _⟩ => rfl)
  rw [e, v20_at]
  rfl

/-- The column minimum of the exponentials is the decay coefficient. -/
theorem v29_at (seg : (⟨S200x448x448, .f32⟩ : BufTy).Contents (Elt Ideal)) (lab : (⟨S200, .i32⟩ : BufTy).Contents (Elt Ideal)) (t : Fin 200) :
    val_main_v29 (F := Ideal) seg lab (ix1 t)
      = decayCoeff (decayIou (iou (inter seg) (area seg)) (fun k => lab (ix1 k))) t := by
  unfold val_main_v29
  rw [reduce_min_rows]
  unfold decayCoeff
  exact iInf_congr fun k => v28_at seg lab k t

/-- THE REFERENCE'S RESULT at candidate j: its score times the decay coefficient of column j, over the intersection
    matrix and the areas of the flattened masks. -/
theorem reference_value (seg : (⟨S200x448x448, .f32⟩ : BufTy).Contents (Elt Ideal)) (sc : (⟨S200, .f32⟩ : BufTy).Contents (Elt Ideal)) (lab : (⟨S200, .i32⟩ : BufTy).Contents (Elt Ideal)) (j : Fin 200) :
    val_main_v30 (F := Ideal) seg sc lab (ix1 j)
      = Cert.MatrixNms.decayed
          (Cert.MatrixNms.iou
            (fun i j => ∑ p : Fin 200704, val_main_v0 (F := Ideal) seg (ix2 i p) * val_main_v0 (F := Ideal) seg (ix2 j p))
            (fun i => ∑ p : Fin 200704, val_main_v0 (F := Ideal) seg (ix2 i p)))
          (fun i => lab (ix1 i)) (fun i => sc (ix1 i)) j := by
  rw [val_main_v30_apply, v29_at]
  rfl

end Cert.MatrixNms.Ref

end
-- ==== Proof.NmsPre.lean ====
/-
  What the precondition says of the masks.

  The precondition is the conjunction of four "for all entries" tests. Its third says that every mask entry equals 0 or
  equals 1; its fourth that every row sum of the flattened masks — every mask's area — is greater than 0. A conjunction of
  one-bit words is 1 only if each is, and an "and" reduction over all entries that is 1 had a 1 at every entry; an
  entry's bit is an equality, or an order, of extended reals.
-/
import proofs.«126792_j10084583211138_2_alg».proof.Pre_finite_inputs
import Idealize.ShloMosaic.Lib.ReduceAll
import Idealize.ShloMosaic.Lib.ValueIdx
import Idealize.ShloMosaic.Lib.IdealHost
import Idealize.ShloMosaic.Lib.Pipeline.Value
import Idealize.ShloMosaic.PureOps.Ideal.Laws

noncomputable section

namespace Cert.MatrixNms.Pre

open Idealize.ShloMosaic ValueIdx Cert.Pre_finite_inputs

variable [Cert.Pre_finite_inputs.Facts]

/-- The scalar shape has one index. -/
instance : Subsingleton S_.Idx := ⟨fun a b => funext fun d => d.elim0⟩

/-- A scalar broadcast to any shape reads the scalar everywhere. -/
theorem bcast_scalar {t : Shape} (h : S_.BroadcastsInDim t (![] : Fin 0 → Fin t.rank)) (x : S_.Idx → EReal)
    (j : t.Idx) : broadcastInDim t ![] h x j = x ix0 :=
  broadcastInDim_apply _ h x j ix0 (fun a => a.elim0)

/-- An equality test of extended reals is 1 exactly at equality. -/
theorem cmp_oeq_eq_one {x y : EReal} : FloatOps.cmpf (F := Ideal) (φ := .f32) .oeq x y = 1#1 ↔ x = y := by
  show Ideal.cmp .oeq x y = 1#1 ↔ _
  unfold Ideal.cmp
  by_cases h : x = y <;> simp [h]

/-- A greater-than test of extended reals is 1 exactly where the first is above the second. -/
theorem cmp_ogt_eq_one {x y : EReal} : FloatOps.cmpf (F := Ideal) (φ := .f32) .ogt x y = 1#1 ↔ y < x := by
  show Ideal.cmp .ogt x y = 1#1 ↔ _
  unfold Ideal.cmp
  by_cases h : y < x <;> simp [h]

/-- The row sum from 0 of a 200 × 200704 array, at row i. -/
theorem rowSum_at (y : FVec Ideal S200x200704 .f32) (i : Fin 200) :
    Host.reduceAdd (F := Ideal) y (constant (F := Ideal) S_ .f32 0x00000000#32) Facts.reducesTo_S200x200704_S200_d1
        Facts.h_S_ (ix1 i)
      = ∑ p : Fin 200704, y (ix2 i p) := by
  simp only [Host.reduceAdd, Ideal.hostReduceAdd_def]
  rw [Ideal.hostReduceAdd_single Facts.reducesTo_S200x200704_S200_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- Under the precondition every mask entry is 0 or 1 and every mask has positive area. -/
theorem pre_decode (seg : FVec Ideal S200x448x448 .f32) (sc : FVec Ideal S200 .f32) (lab : IVec S200 32)
    (h : fn (F := Ideal) seg sc lab = fun _ => 1#1) :
    (∀ idx : S200x448x448.Idx, seg idx = 0 ∨ seg idx = 1) ∧
      (∀ i : Fin 200, 0 < ∑ p : Fin 200704,
        (shapeCast S200x200704 seg Facts.shapeCasts_S200x448x448_S200x200704) (ix2 i p)) := by
  have h0 := congrFun h ix0
  dsimp only [fn, fn_part1] at h0
  obtain ⟨h15, h20⟩ := IntOp.andi_eq_one.mp h0
  obtain ⟨_, h14⟩ := IntOp.andi_eq_one.mp h15
  refine ⟨fun idx => ?_, fun i => ?_⟩
  · have e := Host.reduce_andi_all _ _ _ _ ix0 h14 idx
    rcases IntOp.ori_eq_one.mp e with e0 | e1
    · left
      rw [cmpf_apply] at e0
      have e' := cmp_oeq_eq_one.mp e0
      rw [e', bcast_scalar]
      exact Ideal.ofBits_zero_f32
    · right
      rw [cmpf_apply] at e1
      have e' := cmp_oeq_eq_one.mp e1
      rw [e', bcast_scalar]
      exact Ideal.ofBits_one_f32
  · have e := Host.reduce_andi_all _ _ _ _ ix0 h20 (ix1 i)
    rw [cmpf_apply] at e
    have e' := cmp_ogt_eq_one.mp e
    rw [bcast_scalar, rowSum_at] at e'
    rw [constant_apply, Ideal.ofBits_zero_f32] at e'
    exact e'

end Cert.MatrixNms.Pre

end
-- ==== Proof.LibERealFinite.lean ====
/-
  Two general facts about extended reals read as ideal float values.

  * `coe_sum`: the coercion of the reals into the extended reals commutes with finite sums, so an identity between sums
    and products of real-valued entries can be proved over the reals and carried back.
  * `real_of_abs_lt`: an extended real whose absolute value `max x (-x)` compares strictly below the f32 pattern of `+∞`
    (`0x7F800000`) is a real number — what a "every entry is finite" precondition gives, entry by entry (`inf_eq`: that
    pattern is `⊤`).
-/
import Idealize.ShloMosaic.PureOps.Ideal

noncomputable section

namespace Cert.LibERealFinite

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x7F800000` is `+∞`. -/
theorem inf_eq : Ideal.ofBits .f32 0x7F800000#32 = (⊤ : EReal) := by
  simp [Ideal.ofBits, Ideal.ieee]

/-- An extended real whose absolute value compares strictly below `+∞` is a real number. -/
theorem real_of_abs_lt (x : EReal) (h : Ideal.cmp .olt (max x (-x)) (Ideal.ofBits .f32 0x7F800000#32) = 1#1) :
    ∃ v : ℝ, x = (v : EReal) := by
  rw [inf_eq] at h
  induction x using EReal.rec with
  | bot => simp [Ideal.cmp] at h
  | coe v => exact ⟨v, rfl⟩
  | top => simp [Ideal.cmp] at h

end Cert.LibERealFinite

end
-- ==== Proof.NmsUnion.lean ====
/-
  For binary masks of positive area every union is positive.

  Entries that are 0 or 1 are real numbers b ∈ {0, 1}; an area is the real sum of a row and an intersection the real sum
  of the products of two rows. Termwise b·b' ≤ b, so the intersection of masks i and j is at most the area of i, and
  area(j) + area(i) − intersection(i, j) ≥ area(j) > 0. The statement is carried between the reals and the extended
  reals by the coercion, which commutes with finite sums, products, sums and differences. So the guarded quotient of
  the specification never takes its guard: it is the unguarded intersection over union.
-/
import proofs.«126792_j10084583211138_2_alg».proof.Proof.NmsSpec
import proofs.«126792_j10084583211138_2_alg».proof.Proof.LibERealFinite

noncomputable section

namespace Cert.MatrixNms.Union

open scoped BigOperators

/-- Binary rows of positive sum: area(j) + area(i) − intersection(i, j) is positive. -/
theorem union_pos {ι κ : Type*} [Fintype κ] (X : ι → κ → EReal) (hbin : ∀ i p, X i p = 0 ∨ X i p = 1)
    (hpos : ∀ i, 0 < ∑ p, X i p) (i j : ι) :
    0 < (∑ p, X j p) + (∑ p, X i p) - ∑ p, X i p * X j p := by
  -- every entry is the coercion of a real that is 0 or 1
  have hreal : ∀ i p, ∃ v : ℝ, X i p = (v : EReal) ∧ (v = 0 ∨ v = 1) := fun i p => by
    rcases hbin i p with h | h
    · exact ⟨0, by rw [h, EReal.coe_zero], Or.inl rfl⟩
    · exact ⟨1, by rw [h, EReal.coe_one], Or.inr rfl⟩
  choose b hb hb01 using hreal
  -- areas and the intersection are coercions of real sums
  have harea : ∀ i, ∑ p, X i p = ((∑ p, b i p : ℝ) : EReal) := fun i => by
    rw [Cert.LibERealFinite.coe_sum]
    exact Finset.sum_congr rfl fun p _ => hb i p
  have hinter : ∑ p, X i p * X j p = ((∑ p, b i p * b j p : ℝ) : EReal) := by
    rw [Cert.LibERealFinite.coe_sum]
    exact Finset.sum_congr rfl fun p _ => by rw [hb i p, hb j p, EReal.coe_mul]
  have hj : 0 < ∑ p, b j p := by
    have h := hpos j
    rw [harea j] at h
    exact EReal.coe_pos.mp h
  -- termwise b·b' ≤ b
  have hle : ∑ p, b i p * b j p ≤ ∑ p, b i p := Finset.sum_le_sum fun p _ => by
    rcases hb01 i p with h | h <;> rcases hb01 j p with h' | h' <;> rw [h, h'] <;> norm_num
  rw [harea j, harea i, hinter, ← EReal.coe_add, ← EReal.coe_sub, EReal.coe_pos]
  linarith

/-- For 200 binary masks of positive area the guarded intersection over union is the unguarded one. -/
theorem guard_never_binds (X : Fin 200 → Fin 200704 → EReal) (hbin : ∀ i p, X i p = 0 ∨ X i p = 1)
    (hpos : ∀ i, 0 < ∑ p, X i p) :
    Cert.MatrixNms.iouGuarded (fun i j => ∑ p, X i p * X j p) (fun i => ∑ p, X i p)
      = Cert.MatrixNms.iou (fun i j => ∑ p, X i p * X j p) (fun i => ∑ p, X i p) :=
  Cert.MatrixNms.iouGuarded_eq_iou _ _ fun i j => union_pos X hbin hpos i j

end Cert.MatrixNms.Union

end
-- ==== Proof.lean ====
/-
  Matrix non-maximum suppression, the score decay: a two-kernel implementation against the plain array program.

  Both programs flatten the 200 masks to 200704 columns, form the intersection matrix I(i, j) = Σ_p x(i, p)·x(j, p) and
  the areas a(i) = Σ_p x(i, p), the quotient I(i, j) / (a(j) + a(i) − I(i, j)) above the diagonal on pairs of equal
  label, each column's largest entry, the decay exp(2·(comp(i)² − d(i, j)²)), its column minimum, and scale the
  scores by it. The kernel computes I and a tile by tile on two cores (sixteen tiles of 12544 columns, summed in
  two runs of eight and then added) — the same sums, regrouped, on the extended reals — and guards the quotient by
  the test "union > 0". Under the precondition the masks are binary and none is empty, so every union is positive
  (the intersection of two binary masks is at most either area) and the guard never binds: the two results are one
  function of the arguments.

  The three frames: the kernel's two are the generated frame theorems; the reference's is its run with the result
  dropped. The idealization rewrote nothing, so its statement is trivial.
-/
import proofs.«126792_j10084583211138_2_alg».proof.Defs
import proofs.«126792_j10084583211138_2_alg».proof.Proof.Gen.Kernel
import proofs.«126792_j10084583211138_2_alg».proof.Proof.Gen.Kernel.Skeleton
import proofs.«126792_j10084583211138_2_alg».proof.Proof.Gen.Kernel.Launch
import proofs.«126792_j10084583211138_2_alg».proof.Proof.Gen.Kernel.Points
import proofs.«126792_j10084583211138_2_alg».proof.Proof.Gen.Kernel.Frame
import proofs.«126792_j10084583211138_2_alg».proof.Proof.Gen.KernelIdeal
import proofs.«126792_j10084583211138_2_alg».proof.Proof.Gen.KernelIdeal.Skeleton
import proofs.«126792_j10084583211138_2_alg».proof.Proof.Gen.KernelIdeal.Launch
import proofs.«126792_j10084583211138_2_alg».proof.Proof.Gen.KernelIdeal.Points
import proofs.«126792_j10084583211138_2_alg».proof.Proof.Gen.KernelIdeal.Frame
import proofs.«126792_j10084583211138_2_alg».proof.Proof.Gen.ReferenceIdeal
import proofs.«126792_j10084583211138_2_alg».proof.Proof.Gen.Pre_finite_inputs
import proofs.«126792_j10084583211138_2_alg».proof.Proof.Gen.ReferenceIdeal.Run
import proofs.«126792_j10084583211138_2_alg».proof.Proof.Gen.ReferenceIdeal.Read
import proofs.«126792_j10084583211138_2_alg».proof.Proof.NmsRun
import proofs.«126792_j10084583211138_2_alg».proof.Proof.NmsBridge
import proofs.«126792_j10084583211138_2_alg».proof.Proof.NmsReference
import proofs.«126792_j10084583211138_2_alg».proof.Proof.NmsPre
import proofs.«126792_j10084583211138_2_alg».proof.Proof.NmsUnion
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Binary masks stay binary when flattened: a reshape only re-indexes. -/
theorem reshape_binary (seg : Cert.KernelIdeal.S200x448x448.Idx → EReal)
    (h : Cert.KernelIdeal.S200x448x448.ShapeCasts Cert.KernelIdeal.S200x200704)
    (hbin : ∀ idx, seg idx = 0 ∨ seg idx = 1) (y : Cert.KernelIdeal.S200x200704.Idx) :
    shapeCast Cert.KernelIdeal.S200x200704 seg h y = 0 ∨ shapeCast Cert.KernelIdeal.S200x200704 seg h y = 1 := by
  unfold shapeCast
  exact hbin _

/-- On the extended reals, from memories that agree on the arguments and satisfy the precondition, the idealized kernel
    and the idealized reference end with the same result: both are the decayed scores, the kernel's of the guarded
    quotient and the reference's of the plain one, and under the precondition every union is positive. -/
theorem algebraic : Cert.algebraic_KernelIdeal_ReferenceIdeal := by
  intro m ρ m' ρ' hpre hagree
  refine ⟨fun c => Cert.KernelIdeal.Gen.W5 m ρ c (Proc.devRef .tc Cert.KernelIdeal.main_v6),
    Cert.MatrixNms.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2]
  funext y
  obtain ⟨j, rfl⟩ : ∃ j : Fin 200, y = ix1 j := ⟨y 0, eq_ix1 y⟩
  rw [Cert.MatrixNms.Ref.reference_value]
  refine Eq.trans ?_ (Cert.MatrixNms.Bridge.kernel_value m ρ c j).symm
  obtain ⟨hbin, hpos⟩ := Cert.MatrixNms.Pre.pre_decode _ _ _ (hpre c)
  have hX := Cert.MatrixNms.Union.guard_never_binds (fun i p => Cert.MatrixNms.Bridge.masks m c (ix2 i p))
    (fun i p => reshape_binary _ _ hbin (ix2 i p)) (fun i => hpos i)
  exact congrArg (fun q => Cert.MatrixNms.decayed q _ _ j) hX.symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
